-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x4096 : Shape := ⟨3, ![64, 1, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S_ : Shape := ⟨0, ![]⟩

class Facts : Prop where
  bcast_S_S64x1x4096 : S_.BroadcastsInDim S64x1x4096 (![] : Fin 0 → Fin S64x1x4096.rank)
  reducesTo_S64x1x4096_S_d0_1_2 : S64x1x4096.ReducesTo [0, 1, 2] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S4096x86 : S_.BroadcastsInDim S4096x86 (![] : Fin 0 → Fin S4096x86.rank)
  reducesTo_S4096x86_S_d0_1 : S4096x86.ReducesTo [0, 1] S_

variable [Facts]

def fn_part1 {F : FTy → Type} [FloatOps F] (main_arg6 : FVec F S11008x32 .f32) (main_arg8 : FVec F S4096x86 .f32) (main_arg9 : FVec F S4096x86 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S11008x32 .f32 := Host.absf main_arg6
  let main_cst_6 : FVec F S_ .f32 := constant S_ .f32 0x7F800000#32
  let main_v20 : FVec F S11008x32 .f32 := broadcastInDim S11008x32 ![] bcast_S_S11008x32 main_cst_6
  let main_v21 : IVec S11008x32 1 := cmpf .olt main_v19 main_v20
  let main_c_7 : IVec S_ 1 := constantI S_ 1 1#1
  let main_v22 : IVec S_ 1 := (fun x v => Host.reduce IntOp.andi x v reducesTo_S11008x32_S_d0_1 h_S_) main_v21 main_c_7
  let main_v23 : IVec S_ 1 := andi main_v18 main_v22
  let main_v24 : FVec F S4096x86 .f32 := Host.absf main_arg8
  let main_cst_8 : FVec F S_ .f32 := constant S_ .f32 0x7F800000#32
  let main_v25 : FVec F S4096x86 .f32 := broadcastInDim S4096x86 ![] bcast_S_S4096x86 main_cst_8
  let main_v26 : IVec S4096x86 1 := cmpf .olt main_v24 main_v25
  let main_c_9 : IVec S_ 1 := constantI S_ 1 1#1
  let main_v27 : IVec S_ 1 := (fun x v => Host.reduce IntOp.andi x v reducesTo_S4096x86_S_d0_1 h_S_) main_v26 main_c_9
  let main_v28 : IVec S_ 1 := andi main_v23 main_v27
  let main_v29 : FVec F S4096x86 .f32 := Host.absf main_arg9
  let main_cst_10 : FVec F S_ .f32 := constant S_ .f32 0x7F800000#32
  let main_v30 : FVec F S4096x86 .f32 := broadcastInDim S4096x86 ![] bcast_S_S4096x86 main_cst_10
  let main_v31 : IVec S4096x86 1 := cmpf .olt main_v29 main_v30
  let main_c_11 : IVec S_ 1 := constantI S_ 1 1#1
  let main_v32 : IVec S_ 1 := (fun x v => Host.reduce IntOp.andi x v reducesTo_S4096x86_S_d0_1 h_S_) main_v31 main_c_11
  let main_v33 : IVec S_ 1 := andi main_v28 main_v32
  main_v33

def fn {F : FTy → Type} [FloatOps F] (main_arg0 : FVec F S64x1x4096 .f32) (main_arg1 : IVec S11008x4096 32) (main_arg2 : FVec F S11008x32 .f32) (main_arg3 : FVec F S11008x32 .f32) (main_arg4 : IVec S11008x4096 32) (main_arg5 : FVec F S11008x32 .f32) (main_arg6 : FVec F S11008x32 .f32) (main_arg7 : IVec S4096x11008 32) (main_arg8 : FVec F S4096x86 .f32) (main_arg9 : FVec F S4096x86 .f32) : IVec S_ 1 :=
  let main_v0 : FVec F S64x1x4096 .f32 := Host.absf main_arg0
  let main_cst : FVec F S_ .f32 := constant S_ .f32 0x7F800000#32
  let main_v1 : FVec F S64x1x4096 .f32 := broadcastInDim S64x1x4096 ![] bcast_S_S64x1x4096 main_cst
  let main_v2 : IVec S64x1x4096 1 := cmpf .olt main_v0 main_v1
  let main_c : IVec S_ 1 := constantI S_ 1 1#1
  let main_v3 : IVec S_ 1 := (fun x v => Host.reduce IntOp.andi x v reducesTo_S64x1x4096_S_d0_1_2 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008x32 .f32 := Host.absf main_arg5
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg6 main_arg8 main_arg9 main_v13 main_v16
-- ==== Kernel.lean ====
abbrev S64x1x4096 : Shape := ⟨3, ![64, 1, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S64x4096 : Shape := ⟨2, ![64, 4096]⟩
abbrev S256x4096 : Shape := ⟨2, ![256, 4096]⟩
abbrev S256x32 : Shape := ⟨2, ![256, 32]⟩
abbrev S4096x256 : Shape := ⟨2, ![4096, 256]⟩
abbrev S256x32x128 : Shape := ⟨3, ![256, 32, 128]⟩
abbrev S256x32x1 : Shape := ⟨3, ![256, 32, 1]⟩
abbrev S64x256 : Shape := ⟨2, ![64, 256]⟩
abbrev S4096x2 : Shape := ⟨2, ![4096, 2]⟩
abbrev S4096x2x128 : Shape := ⟨3, ![4096, 2, 128]⟩
abbrev S4096x2x1 : Shape := ⟨3, ![4096, 2, 1]⟩

abbrev nBuf : Space → Nat
  | .hbm => 13
  | .vmem => 19
  | .smem => 0
  | _ => 0

abbrev bufTy : (tb : Table) → Fin (tcTables nBuf tb) → BufTy
  | .hbm, ⟨0, _⟩ => ⟨S64x1x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008x4096, .i32⟩
  | .hbm, ⟨5, _⟩ => ⟨S11008x32, .f32⟩
  | .hbm, ⟨6, _⟩ => ⟨S11008x32, .f32⟩
  | .hbm, ⟨7, _⟩ => ⟨S4096x11008, .i32⟩
  | .hbm, ⟨8, _⟩ => ⟨S4096x86, .f32⟩
  | .hbm, ⟨9, _⟩ => ⟨S4096x86, .f32⟩
  | .hbm, ⟨10, _⟩ => ⟨S64x4096, .f32⟩
  | .hbm, ⟨11, _⟩ => ⟨S64x4096, .f32⟩
  | .hbm, ⟨12, _⟩ => ⟨S64x1x4096, .f32⟩
  | .local _ .vmem, ⟨0, _⟩ => ⟨S64x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x4096, .i32⟩
  | .local _ .vmem, ⟨8, _⟩ => ⟨S256x4096, .i32⟩
  | .local _ .vmem, ⟨9, _⟩ => ⟨S256x32, .f32⟩
  | .local _ .vmem, ⟨10, _⟩ => ⟨S256x32, .f32⟩
  | .local _ .vmem, ⟨11, _⟩ => ⟨S256x32, .f32⟩
  | .local _ .vmem, ⟨12, _⟩ => ⟨S256x32, .f32⟩
  | .local _ .vmem, ⟨13, _⟩ => ⟨S4096x256, .i32⟩
  | .local _ .vmem, ⟨14, _⟩ => ⟨S4096x256, .i32⟩
  | .local _ .vmem, ⟨15, _⟩ => ⟨S4096x86, .f32⟩
  | .local _ .vmem, ⟨16, _⟩ => ⟨S4096x86, .f32⟩
  | .local _ .vmem, ⟨17, _⟩ => ⟨S64x4096, .f32⟩
  | .local _ .vmem, ⟨18, _⟩ => ⟨S64x4096, .f32⟩
  | _, _ => ⟨S64x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![43], ![false]⟩

def k0_off1 (i : grid0.Coords) : Fin 2 → Nat :=
  let c0_15 : Index := 0#32
  let arg0 : BitVec 32 := BitVec.ofNat 32 (i 0).val
  let c2_i32 : BitVec 32 := 2#32
  let v38 : BitVec 32 := Scalar.muli arg0 c2_i32
  let v39 : Index := Scalar.indexCast v38
  ![0, v39.toNat]
def k0_cond2 (i : grid0.Coords) : BitVec 1 :=
  let arg0 : BitVec 32 := BitVec.ofNat 32 (i 0).val
  let c42_i32 : BitVec 32 := 42#32
  let v60 : BitVec 1 := Scalar.cmpi .eq arg0 c42_i32
  let v61 : BitVec 32 := Scalar.extui v60
  let c0_i32_24 : BitVec 32 := 0#32
  let v62 : BitVec 1 := Scalar.cmpi .ne v61 c0_i32_24
  v62

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x86 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x86 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

class Facts₀ : Prop where
  shapeCasts_S64x1x4096_S64x4096 : S64x1x4096.ShapeCasts S64x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x32_S256x32_0_0 : ∀ a, (![0, 0] : Fin 2 → Nat) a + S256x32.size a ≤ S256x32.size a
  h_S256x32 : 0 < S256x32.numel
  shapeCasts_S256x4096_S256x32x128 : S256x4096.ShapeCasts S256x32x128
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  h_S4096x2 : 0 < S4096x2.numel
  inb_S4096x256_S4096x256_0_0 : ∀ a, (![0, 0] : Fin 2 → Nat) a + S4096x256.size a ≤ S4096x256.size a
  h_S4096x256 : 0 < S4096x256.numel
  shapeCasts_S4096x256_S4096x2x128 : S4096x256.ShapeCasts S4096x2x128
  shapeCasts_S4096x2_S4096x2x1 : S4096x2.ShapeCasts S4096x2x1
  broadcasts_S4096x2x1_S4096x2x128 : S4096x2x1.Broadcasts S4096x2x128
  shapeCasts_S4096x2x128_S4096x256 : S4096x2x128.ShapeCasts S4096x256
  shapeCasts_S64x4096_S64x1x4096 : S64x4096.ShapeCasts S64x1x4096
  dot_S64x4096_S256x4096_S64x256_1_1_0_0_n_n_wf : DotDims.WF S64x4096 S256x4096 S64x256 [1] [1] [0] [0] [] []
  dot_S64x256_S4096x256_S64x4096_1_1_0_0_n_n_wf : DotDims.WF S64x256 S4096x256 S64x4096 [1] [1] [0] [0] [] []
  hrank0 : 0 < grid0.rank
  k0_off1_inb : ∀ i : grid0.Coords, ∀ a, (k0_off1 i) a + S4096x2.size a ≤ S4096x86.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S11008x4096.size a
  hwx0_4 : ∀ i : grid0.Coords, EltTy.bits .i32 = 32 ∨ (Rect.block (s := S11008x4096) S256x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S11008x32.size a
  hwx0_5 : ∀ i : grid0.Coords, EltTy.bits .f32 = 32 ∨ (Rect.block (s := S11008x32) S256x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S11008x32.size a
  hwx0_6 : ∀ i : grid0.Coords, EltTy.bits .f32 = 32 ∨ (Rect.block (s := S11008x32) S256x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x256.size a ≤ S4096x11008.size a
  hwx0_7 : ∀ i : grid0.Coords, EltTy.bits .i32 = 32 ∨ (Rect.block (s := S4096x11008) S4096x256.size (cc0_transform_7 i) (hinb0_7 i)).WholeWords (EltTy.packing .i32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x86.size a ≤ S4096x86.size a
  hwx0_8 : ∀ i : grid0.Coords, EltTy.bits .f32 = 32 ∨ (Rect.block (s := S4096x86) S4096x86.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x86.size a ≤ S4096x86.size a
  hwx0_9 : ∀ i : grid0.Coords, EltTy.bits .f32 = 32 ∨ (Rect.block (s := S4096x86) S4096x86.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x4096.size a ≤ S64x4096.size a
  hwx0_10 : ∀ i : grid0.Coords, EltTy.bits .f32 = 32 ∨ (Rect.block (s := S64x4096) S64x4096.size (cc0_transform_10 i) (hinb0_10 i)).WholeWords (EltTy.packing .f32)

variable [Facts₀]

def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x256_S4096x256_S64x4096_1_1_0_0_n_n : DotDims S64x256 S4096x256 S64x4096 where
  lhsContracting := [1]
  rhsContracting := [1]
  lhsNonContracting := [0]
  rhsNonContracting := [0]
  lhsBatch := []
  rhsBatch := []
  wf := dot_S64x256_S4096x256_S64x4096_1_1_0_0_n_n_wf

abbrev win0_0 : Pipeline.Window sig grid0 :=
  Pipeline.Window.ofSpec (Memref.whole main_v0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4096x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4096x86.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S4096x86.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S64x4096.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S64x1x4096 : Shape := ⟨3, ![64, 1, 4096]⟩
abbrev S11008x4096 : Shape := ⟨2, ![11008, 4096]⟩
abbrev S11008x32 : Shape := ⟨2, ![11008, 32]⟩
abbrev S4096x11008 : Shape := ⟨2, ![4096, 11008]⟩
abbrev S4096x86 : Shape := ⟨2, ![4096, 86]⟩
abbrev S11008x32x128 : Shape := ⟨3, ![11008, 32, 128]⟩
abbrev S11008x32x1 : Shape := ⟨3, ![11008, 32, 1]⟩
abbrev S4096x86x128 : Shape := ⟨3, ![4096, 86, 128]⟩
abbrev S4096x86x1 : Shape := ⟨3, ![4096, 86, 1]⟩
abbrev S64x1x11008 : Shape := ⟨3, ![64, 1, 11008]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S64x1x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008x4096, .i32⟩
  | .hbm, ⟨5, _⟩ => ⟨S11008x32, .f32⟩
  | .hbm, ⟨6, _⟩ => ⟨S11008x32, .f32⟩
  | .hbm, ⟨7, _⟩ => ⟨S4096x11008, .i32⟩
  | .hbm, ⟨8, _⟩ => ⟨S4096x86, .f32⟩
  | .hbm, ⟨9, _⟩ => ⟨S4096x86, .f32⟩
  | .hbm, ⟨10, _⟩ => ⟨S11008x4096, .f32⟩
  | .hbm, ⟨11, _⟩ => ⟨S11008x32x128, .f32⟩
  | .hbm, ⟨12, _⟩ => ⟨S11008x32x1, .f32⟩
  | .hbm, ⟨13, _⟩ => ⟨S11008x32x128, .f32⟩
  | .hbm, ⟨14, _⟩ => ⟨S11008x32x128, .f32⟩
  | .hbm, ⟨15, _⟩ => ⟨S11008x32x1, .f32⟩
  | .hbm, ⟨16, _⟩ => ⟨S11008x32x128, .f32⟩
  | .hbm, ⟨17, _⟩ => ⟨S11008x32x128, .f32⟩
  | .hbm, ⟨18, _⟩ => ⟨S11008x4096, .f32⟩
  | .hbm, ⟨19, _⟩ => ⟨S11008x4096, .f32⟩
  | .hbm, ⟨20, _⟩ => ⟨S11008x32x128, .f32⟩
  | .hbm, ⟨21, _⟩ => ⟨S11008x32x1, .f32⟩
  | .hbm, ⟨22, _⟩ => ⟨S11008x32x128, .f32⟩
  | .hbm, ⟨23, _⟩ => ⟨S11008x32x128, .f32⟩
  | .hbm, ⟨24, _⟩ => ⟨S11008x32x1, .f32⟩
  | .hbm, ⟨25, _⟩ => ⟨S11008x32x128, .f32⟩
  | .hbm, ⟨26, _⟩ => ⟨S11008x32x128, .f32⟩
  | .hbm, ⟨27, _⟩ => ⟨S11008x4096, .f32⟩
  | .hbm, ⟨28, _⟩ => ⟨S4096x11008, .f32⟩
  | .hbm, ⟨29, _⟩ => ⟨S4096x86x128, .f32⟩
  | .hbm, ⟨30, _⟩ => ⟨S4096x86x1, .f32⟩
  | .hbm, ⟨31, _⟩ => ⟨S4096x86x128, .f32⟩
  | .hbm, ⟨32, _⟩ => ⟨S4096x86x128, .f32⟩
  | .hbm, ⟨33, _⟩ => ⟨S4096x86x1, .f32⟩
  | .hbm, ⟨34, _⟩ => ⟨S4096x86x128, .f32⟩
  | .hbm, ⟨35, _⟩ => ⟨S4096x86x128, .f32⟩
  | .hbm, ⟨36, _⟩ => ⟨S4096x11008, .f32⟩
  | .hbm, ⟨37, _⟩ => ⟨S64x1x11008, .f32⟩
  | .hbm, ⟨38, _⟩ => ⟨S64x1x11008, .f32⟩
  | .hbm, ⟨39, _⟩ => ⟨S64x1x11008, .f32⟩
  | .hbm, ⟨40, _⟩ => ⟨S64x1x11008, .f32⟩
  | .hbm, ⟨41, _⟩ => ⟨S_, .f32⟩
  | .hbm, ⟨42, _⟩ => ⟨S64x1x11008, .f32⟩
  | .hbm, ⟨43, _⟩ => ⟨S64x1x11008, .f32⟩
  | .hbm, ⟨44, _⟩ => ⟨S_, .f32⟩
  | .hbm, ⟨45, _⟩ => ⟨S64x1x11008, .f32⟩
  | .hbm, ⟨46, _⟩ => ⟨S64x1x11008, .f32⟩
  | .hbm, ⟨47, _⟩ => ⟨S64x1x11008, .f32⟩
  | .hbm, ⟨48, _⟩ => ⟨S64x1x11008, .f32⟩
  | .hbm, ⟨49, _⟩ => ⟨S64x1x4096, .f32⟩
  | _, _ => ⟨S64x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  shapeCasts_S4096x11008_S4096x86x128 : S4096x11008.ShapeCasts S4096x86x128
  bcast_S4096x86_S4096x86x1_0_1 : S4096x86.BroadcastsInDim S4096x86x1 (![0, 1] : Fin 2 → Fin S4096x86x1.rank)
  bcast_S4096x86x1_S4096x86x128_0_1_2 : S4096x86x1.BroadcastsInDim S4096x86x128 (![0, 1, 2] : Fin 3 → Fin S4096x86x128.rank)
  shapeCasts_S4096x86x128_S4096x11008 : S4096x86x128.ShapeCasts S4096x11008
  bcast_S_S64x1x11008 : S_.BroadcastsInDim S64x1x11008 (![] : Fin 0 → Fin S64x1x11008.rank)
  dot_S64x1x4096_S11008x4096_S64x1x11008_2_1_01_0_n_n_wf : DotDims.WF S64x1x4096 S11008x4096 S64x1x11008 [2] [1] [0, 1] [0] [] []
  dot_S64x1x11008_S4096x11008_S64x1x4096_2_1_01_0_n_n_wf : DotDims.WF S64x1x11008 S4096x11008 S64x1x4096 [2] [1] [0, 1] [0] [] []

variable [Facts₀]

def dot_S64x1x4096_S11008x4096_S64x1x11008_2_1_01_0_n_n : DotDims S64x1x4096 S11008x4096 S64x1x11008 where
  lhsContracting := [2]
  rhsContracting := [1]
  lhsNonContracting := [0, 1]
  rhsNonContracting := [0]
  lhsBatch := []
  rhsBatch := []
  wf := dot_S64x1x4096_S11008x4096_S64x1x11008_2_1_01_0_n_n_wf
def dot_S64x1x11008_S4096x11008_S64x1x4096_2_1_01_0_n_n : DotDims S64x1x11008 S4096x11008 S64x1x4096 where
  lhsContracting := [2]
  rhsContracting := [1]
  lhsNonContracting := [0, 1]
  rhsNonContracting := [0]
  lhsBatch := []
  rhsBatch := []
  wf := dot_S64x1x11008_S4096x11008_S64x1x4096_2_1_01_0_n_n_wf

class Facts : Prop extends Facts₀ where

variable [Facts]
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.Spec.lean ====
/-
  The mathematics of the quantized gated MLP, stated once, over the argument arrays.

  Every weight is stored as an integer code with one scale and one zero point per group of 128 consecutive columns:
  the weight at row r, column k is  (code[r, k] − zero[r, k / 128]) · scale[r, k / 128].
  With Wg, Wu (11008 × 4096) and Wd (4096 × 11008) the three dequantized matrices and x the 64 activations of length 4096,

      gate[b, i] = Σ_k x[b, k] · Wg[i, k]          up[b, i] = Σ_k x[b, k] · Wu[i, k]
      a[b, i]    = (gate[b, i] · logistic(gate[b, i])) · up[b, i]
      out[b, h]  = Σ_{i < 11008} a[b, i] · Wd[h, i].

  The sum over the 11008 intermediate positions can be taken 256 at a time: position i = 256·t + d belongs to tile
  t < 43, and the running total after tile n is the total after tile n − 1 plus tile n's 256 summands. After the last
  tile the running total is out[b, h]: regrouping a finite sum needs only that addition is associative and
  commutative, which it is on the extended reals, so nothing here asks the entries to be finite.
-/
import Idealize.ShloMosaic.PureOps.Ideal
import Idealize.ShloMosaic.Lib.ValueIdx
import proofs.«153852_j83416854823015_1_alg».proof.Proof.LibSumRegroup

noncomputable section

open scoped BigOperators

namespace Cert.Mlp

open Idealize.ShloMosaic Idealize.ShloMosaic.ValueIdx

/-- The group of a column: 128 consecutive columns share one scale and one zero point. -/
def grp {C G : Nat} (hC : C = G * 128) (k : Fin C) : Fin G := ⟨k.val / 128, by have := k.isLt; omega⟩

/-- One dequantized weight: (code − zero) · scale, zero and scale those of the column's group. -/
def deq {R C G : Nat} (hC : C = G * 128) (q : Vec Ideal ⟨2, ![R, C]⟩ .i32) (s z : FVec Ideal ⟨2, ![R, G]⟩ .f32)
    (r : Fin R) (k : Fin C) : EReal :=
  ((FloatOps.sitofp (F := Ideal) .f32 (q (ix2 r k)) : EReal) - z (ix2 r (grp hC k))) * s (ix2 r (grp hC k))

/-- The ten argument arrays. -/
structure Args where
  x : FVec Ideal ⟨3, ![64, 1, 4096]⟩ .f32
  gq : Vec Ideal ⟨2, ![11008, 4096]⟩ .i32
  gs : FVec Ideal ⟨2, ![11008, 32]⟩ .f32
  gz : FVec Ideal ⟨2, ![11008, 32]⟩ .f32
  uq : Vec Ideal ⟨2, ![11008, 4096]⟩ .i32
  us : FVec Ideal ⟨2, ![11008, 32]⟩ .f32
  uz : FVec Ideal ⟨2, ![11008, 32]⟩ .f32
  dq : Vec Ideal ⟨2, ![4096, 11008]⟩ .i32
  ds : FVec Ideal ⟨2, ![4096, 86]⟩ .f32
  dz : FVec Ideal ⟨2, ![4096, 86]⟩ .f32

/-- A row of activations against row i of a dequantized 11008 × 4096 matrix. -/
def proj (x : FVec Ideal ⟨3, ![64, 1, 4096]⟩ .f32) (q : Vec Ideal ⟨2, ![11008, 4096]⟩ .i32)
    (s z : FVec Ideal ⟨2, ![11008, 32]⟩ .f32) (b : Fin 64) (i : Fin 11008) : EReal :=
  ∑ k : Fin 4096, x (ix3 b (0 : Fin 1) k) * deq (G := 32) rfl q s z i k

/-- The gated activation at intermediate position i: (gate · logistic gate) · up. -/
def act (a : Args) (b : Fin 64) (i : Fin 11008) : EReal :=
  (proj a.x a.gq a.gs a.gz b i * Ideal.logistic (proj a.x a.gq a.gs a.gz b i)) * proj a.x a.uq a.us a.uz b i

/-- Position i's summand of output entry (b, h). -/
def term (a : Args) (b : Fin 64) (h : Fin 4096) (i : Fin 11008) : EReal :=
  act a b i * deq (G := 86) rfl a.dq a.ds a.dz h i

/-- Output entry (b, h): the sum over all 11008 intermediate positions. -/
def out (a : Args) (b : Fin 64) (h : Fin 4096) : EReal := ∑ i : Fin 11008, term a b h i

/-- Tile n's 256 summands (nothing beyond the 43rd tile). -/
def tile (a : Args) (n : ℕ) (b : Fin 64) (h : Fin 4096) : EReal :=
  if hn : n < 43 then ∑ d : Fin 256, term a b h ⟨256 * n + d.val, by have := d.isLt; omega⟩ else 0

/-- The running total after tile n. -/
def acc (a : Args) : ℕ → Fin 64 → Fin 4096 → EReal
  | 0 => fun b h => tile a 0 b h
  | n + 1 => fun b h => acc a n b h + tile a (n + 1) b h

theorem acc_zero (a : Args) (b : Fin 64) (h : Fin 4096) : acc a 0 b h = tile a 0 b h := rfl
theorem acc_succ (a : Args) (n : ℕ) (b : Fin 64) (h : Fin 4096) : acc a (n + 1) b h = acc a n b h + tile a (n + 1) b h := rfl

/-- The running total is the sum of the tiles so far. -/
theorem acc_eq_sum (a : Args) (n : ℕ) (b : Fin 64) (h : Fin 4096) :
    acc a n b h = ∑ t ∈ Finset.range (n + 1), tile a t b h := by
  induction n with
  | zero => rw [acc_zero, Finset.sum_range_one]
  | succ n ih => rw [acc_succ, ih, Finset.sum_range_succ _ (n + 1)]

/-- AFTER THE LAST TILE THE RUNNING TOTAL IS THE WHOLE SUM: 11008 = 43 · 256, position 256·t + d in tile t. -/
theorem acc_last (a : Args) (b : Fin 64) (h : Fin 4096) : acc a 42 b h = out a b h := by
  rw [acc_eq_sum, Finset.sum_range (fun t => tile a t b h), out,
    Cert.Lib.SumRegroup.sum_fin_mul 43 256 11008 rfl (term a b h)]
  refine Finset.sum_congr rfl fun t _ => ?_
  rw [tile, dif_pos t.isLt]
  refine Finset.sum_congr rfl fun d _ => ?_
  refine congrArg (term a b h) (Fin.ext ?_)
  show 256 * t.val + d.val = (finProdFinEquiv (t, d)).val
  rw [finProdFinEquiv_apply_val]
  show 256 * t.val + d.val = d.val + 256 * t.val
  omega

/-- The result array: entry (b, 0, h) is out[b, h]. -/
def G (a : Args) : FVec Ideal ⟨3, ![64, 1, 4096]⟩ .f32 := fun j => out a (j 0) (j 2)

theorem G_apply (a : Args) (b : Fin 64) (z : Fin 1) (h : Fin 4096) : G a (ix3 b z h) = out a b h := rfl

end Cert.Mlp

end
-- ==== Proof.LibGroupedColumns.lean ====
/-
  Matrices whose columns come in groups of 128, read at an entry.

  A matrix with c = g·128 columns is regrouped as an a × g × 128 array: entry (r, p, q) of the regrouped array is
  entry (r, 128·p + q) of the matrix, and entry (r, k) of the matrix is entry (r, k / 128, k % 128) of the regrouped
  array. A per-group parameter (an a × g matrix) is given a trailing axis of extent one and repeated along it:
  the repeated array's entry (r, p, q) is the parameter's entry (r, p), whatever q.

  Together: subtracting one per-group parameter from the regrouped matrix of converted integer codes, multiplying by
  another, and flattening back gives, at entry (r, k),  (code[r, k] − z[r, k / 128]) · s[r, k / 128]  on the
  extended reals.
-/
import Idealize.ShloMosaic.PureOps.Ideal
import Idealize.ShloMosaic.Lib.ValueIdx
import Idealize.ShloMosaic.Lib.Pipeline.Value

noncomputable section

namespace Cert.Lib.Grouped

open Idealize.ShloMosaic Idealize.ShloMosaic.ValueIdx

variable {α : Type}

/-- Regrouping the columns: entry (r, p, q) of the a × g × 128 array is entry (r, 128·p + q) of the matrix. -/
theorem shapeCast_split_apply {a c g : Nat} (hc : c = g * 128) (v : (⟨2, ![a, c]⟩ : Shape).Idx → α)
    (h : (⟨2, ![a, c]⟩ : Shape).ShapeCasts ⟨3, ![a, g, 128]⟩) (r : Fin a) (p : Fin g) (q : Fin 128) :
    shapeCast ⟨3, ![a, g, 128]⟩ v h (ix3 r p q)
      = v (ix2 r ⟨p.val * 128 + q.val, by have := p.isLt; have := q.isLt; omega⟩) := by
  refine shapeCast_apply v h _ _ ?_
  rw [Shape.rowMajor_val_two, Shape.rowMajor_val_three]
  show r.val * c + (p.val * 128 + q.val) = (r.val * g + p.val) * 128 + q.val
  subst hc
  ring

/-- Flattening back: entry (r, k) of the matrix is entry (r, k / 128, k % 128) of the a × g × 128 array. -/
theorem shapeCast_merge_apply {a c g : Nat} (hc : c = g * 128) (v : (⟨3, ![a, g, 128]⟩ : Shape).Idx → α)
    (h : (⟨3, ![a, g, 128]⟩ : Shape).ShapeCasts ⟨2, ![a, c]⟩) (r : Fin a) (k : Fin c) :
    shapeCast ⟨2, ![a, c]⟩ v h (ix2 r k)
      = v (ix3 r ⟨k.val / 128, by have := k.isLt; omega⟩ ⟨k.val % 128, Nat.mod_lt _ (by norm_num)⟩) := by
  refine shapeCast_apply v h _ _ ?_
  rw [Shape.rowMajor_val_two, Shape.rowMajor_val_three]
  show (r.val * g + k.val / 128) * 128 + k.val % 128 = r.val * c + k.val
  subst hc
  have h1 : k.val / 128 * 128 + k.val % 128 = k.val := Nat.div_add_mod' k.val 128
  calc (r.val * g + k.val / 128) * 128 + k.val % 128
      = r.val * (g * 128) + (k.val / 128 * 128 + k.val % 128) := by ring
    _ = r.val * (g * 128) + k.val := by rw [h1]

/-- A trailing axis of extent one: entry (r, p, 0) of the a × g × 1 array is entry (r, p) of the matrix. -/
theorem shapeCast_trailingUnit_apply {a g : Nat} (v : (⟨2, ![a, g]⟩ : Shape).Idx → α)
    (h : (⟨2, ![a, g]⟩ : Shape).ShapeCasts ⟨3, ![a, g, 1]⟩) (r : Fin a) (p : Fin g) (z : Fin 1) :
    shapeCast ⟨3, ![a, g, 1]⟩ v h (ix3 r p z) = v (ix2 r p) := by
  refine shapeCast_apply v h _ _ ?_
  rw [Shape.rowMajor_val_two, Shape.rowMajor_val_three]
  show r.val * g + p.val = (r.val * g + p.val) * 1 + z.val
  have hz : z.val = 0 := by have := z.isLt; omega
  rw [hz, Nat.mul_one, Nat.add_zero]

/-- Repeating along the last axis: entry (r, p, q) of the a × g × 128 array is entry (r, p, 0) of the a × g × 1 one. -/
theorem broadcastTo_lastAxis_apply {a g : Nat} (v : (⟨3, ![a, g, 1]⟩ : Shape).Idx → α)
    (h : (⟨3, ![a, g, 1]⟩ : Shape).Broadcasts ⟨3, ![a, g, 128]⟩) (r : Fin a) (p : Fin g) (q : Fin 128) :
    broadcastTo ⟨3, ![a, g, 128]⟩ v h (ix3 r p q) = v (ix3 r p (0 : Fin 1)) := by
  refine broadcastTo_apply v h _ _ fun d => ?_
  match d with
  | ⟨0, _⟩ =>
    show r.val = if a = 1 then 0 else r.val
    have := r.isLt
    split <;> omega
  | ⟨1, _⟩ =>
    show p.val = if g = 1 then 0 else p.val
    have := p.isLt
    split <;> omega
  | ⟨2, _⟩ =>
    show (0 : Fin 1).val = if (1 : Nat) = 1 then 0 else q.val
    rw [if_pos rfl]
    rfl

/-- A GROUPED DEQUANTIZATION AT AN ENTRY: (code[r, k] − z[r, k / 128]) · s[r, k / 128]. -/
theorem dequant_apply {a c g : Nat} (hc : c = g * 128) (q : IVec ⟨2, ![a, c]⟩ 32) (s z : FVec Ideal ⟨2, ![a, g]⟩ .f32)
    (h1 : (⟨2, ![a, c]⟩ : Shape).ShapeCasts ⟨3, ![a, g, 128]⟩) (h2 : (⟨2, ![a, g]⟩ : Shape).ShapeCasts ⟨3, ![a, g, 1]⟩)
    (h3 : (⟨3, ![a, g, 1]⟩ : Shape).Broadcasts ⟨3, ![a, g, 128]⟩) (h4 : (⟨3, ![a, g, 128]⟩ : Shape).ShapeCasts ⟨2, ![a, c]⟩)
    (r : Fin a) (k : Fin c) :
    shapeCast ⟨2, ![a, c]⟩
        (mulf (subf (shapeCast ⟨3, ![a, g, 128]⟩ (sitofp (F := Ideal) .f32 q) h1)
                    (broadcastTo ⟨3, ![a, g, 128]⟩ (shapeCast ⟨3, ![a, g, 1]⟩ z h2) h3))
              (broadcastTo ⟨3, ![a, g, 128]⟩ (shapeCast ⟨3, ![a, g, 1]⟩ s h2) h3)) h4 (ix2 r k)
      = ((FloatOps.sitofp (F := Ideal) .f32 (q (ix2 r k)) : EReal)
            - z (ix2 r ⟨k.val / 128, by have := k.isLt; omega⟩)) * s (ix2 r ⟨k.val / 128, by have := k.isLt; omega⟩) := by
  rw [shapeCast_merge_apply hc]
  simp only [mulf, subf]
  rw [shapeCast_split_apply hc, broadcastTo_lastAxis_apply, broadcastTo_lastAxis_apply,
    shapeCast_trailingUnit_apply, shapeCast_trailingUnit_apply]
  have hk : (⟨k.val / 128 * 128 + k.val % 128, by have := k.isLt; omega⟩ : Fin c) = k :=
    Fin.ext (Nat.div_add_mod' k.val 128)
  simp only [sitofp, hk, Ideal.mulf_def, Ideal.subf_def]

end Cert.Lib.Grouped

end
-- ==== Proof.LibMatmulTransposedRhs.lean ====
/-
  A matrix product whose right operand is contracted on its LAST axis, into a zero accumulator, read at an entry, over
  the extended reals.

  For the dimension numbers `DotDims.transposedRhs M K N` (an `M × K` left operand, an `N × K` right operand, the
  columns of both contracted, no batch axis: the product of the left operand with the right one's transpose) entry
  `(p, q)` of the product accumulated into the zero matrix is `Σ_{k < K} l (p, k) * r (q, k)`: the contraction index
  has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem transposedRhs_lhsIdx (M K N : Nat) (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index there is `(q, k)`: its row is the output's column. -/
theorem transposedRhs_rhsIdx (M K N : Nat) (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- ENTRY `(p, q)` OF A PRODUCT WITH THE TRANSPOSE, INTO ZERO: the sum over `k : Fin K` of `l (p, k) * r (q, k)`. -/
theorem matmul_transposedRhs_zero_apply {φ₁ φ₂ : FTy} (M K N : Nat) (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [transposedRhs_lhsIdx, transposedRhs_rhsIdx]

end Cert.Lib

end
-- ==== Proof.KernelPayload.lean ====
/-
  The body's arithmetic at one grid point, read entry by entry on the extended reals.

  At a grid point the body sees a 256-row block of each of the gate and up matrices (codes, scales, zeros), a
  256-column block of the down matrix's codes, and the two columns of the down matrix's scales and zeros that belong
  to those 256 columns. It dequantizes the three blocks, forms the 64 × 256 tile of gated activations
        a[b, d] = (g · logistic g) · u,    g = Σ_k x[b, k] · Wg[d, k],   u = Σ_k x[b, k] · Wu[d, k],
  and adds  Σ_{d < 256} a[b, d] · Wd[h, d]  to the running total at entry (b, h).
  (Rounding to a narrower float format is the identity here.)
-/
import proofs.«153852_j83416854823015_1_alg».proof.Proof.Gen.KernelIdeal.Skeleton
import proofs.«153852_j83416854823015_1_alg».proof.Proof.Spec
import proofs.«153852_j83416854823015_1_alg».proof.Proof.LibGroupedColumns
import proofs.«153852_j83416854823015_1_alg».proof.Proof.LibMatmulTransposedRhs

noncomputable section

open scoped BigOperators

namespace Cert.Mlp.Kernel

open Idealize.ShloMosaic Idealize.ShloMosaic.ValueIdx Cert.KernelIdeal Cert.KernelIdeal.Gen

/-- A dequantized 256 × 4096 block of the gate or up matrix, as the body forms it. -/
def wtile (q : Vec Ideal S256x4096 .i32) (s z : Vec Ideal S256x32 .f32) : FVec Ideal S256x4096 .f32 :=
  shapeCast S256x4096
    (mulf (subf (shapeCast S256x32x128 (sitofp (F := Ideal) .f32 q) shapeCasts_S256x4096_S256x32x128)
                (broadcastTo S256x32x128 (shapeCast S256x32x1 z shapeCasts_S256x32_S256x32x1) broadcasts_S256x32x1_S256x32x128))
          (broadcastTo S256x32x128 (shapeCast S256x32x1 s shapeCasts_S256x32_S256x32x1) broadcasts_S256x32x1_S256x32x128))
    shapeCasts_S256x32x128_S256x4096

/-- Its entry (d, k) is the dequantized weight. -/
theorem wtile_apply (q : Vec Ideal S256x4096 .i32) (s z : Vec Ideal S256x32 .f32) (d : Fin 256) (k : Fin 4096) :
    wtile q s z (ix2 d k) = Cert.Mlp.deq (G := 32) rfl q s z d k :=
  Cert.Lib.Grouped.dequant_apply (a := 256) (c := 4096) (g := 32) rfl q s z _ _ _ _ d k

/-- A dequantized 4096 × 256 block of the down matrix, from the block's codes and its two columns of scales and zeros. -/
def wdtile (q : Vec Ideal S4096x256 .i32) (s z : Vec Ideal S4096x2 .f32) : FVec Ideal S4096x256 .f32 :=
  shapeCast S4096x256
    (mulf (subf (shapeCast S4096x2x128 (sitofp (F := Ideal) .f32 q) shapeCasts_S4096x256_S4096x2x128)
                (broadcastTo S4096x2x128 (shapeCast S4096x2x1 z shapeCasts_S4096x2_S4096x2x1) broadcasts_S4096x2x1_S4096x2x128))
          (broadcastTo S4096x2x128 (shapeCast S4096x2x1 s shapeCasts_S4096x2_S4096x2x1) broadcasts_S4096x2x1_S4096x2x128))
    shapeCasts_S4096x2x128_S4096x256

theorem wdtile_apply (q : Vec Ideal S4096x256 .i32) (s z : Vec Ideal S4096x2 .f32) (h : Fin 4096) (d : Fin 256) :
    wdtile q s z (ix2 h d) = Cert.Mlp.deq (G := 2) rfl q s z h d :=
  Cert.Lib.Grouped.dequant_apply (a := 4096) (c := 256) (g := 2) rfl q s z _ _ _ _ h d

/-- One block's projection of the activations: Σ_k x[b, k] · W[d, k]. -/
def tproj (x : Vec Ideal S64x4096 .f32) (q : Vec Ideal S256x4096 .i32) (s z : Vec Ideal S256x32 .f32)
    (b : Fin 64) (d : Fin 256) : EReal :=
  ∑ k : Fin 4096, x (ix2 b k) * Cert.Mlp.deq (G := 32) rfl q s z d k

/-- The tile of gated activations. -/
def tact (x : Vec Ideal S64x4096 .f32) (gq : Vec Ideal S256x4096 .i32) (gs gz : Vec Ideal S256x32 .f32)
    (uq : Vec Ideal S256x4096 .i32) (us uz : Vec Ideal S256x32 .f32) (b : Fin 64) (d : Fin 256) : EReal :=
  (tproj x gq gs gz b d * Ideal.logistic (tproj x gq gs gz b d)) * tproj x uq us uz b d

/-- The product of the activations with a dequantized block's transpose, into zero, at an entry. -/
theorem proj_apply (x : Vec Ideal S64x4096 .f32) (q : Vec Ideal S256x4096 .i32) (s z : Vec Ideal S256x32 .f32)
    (b : Fin 64) (d : Fin 256) :
    matmul dot_S64x4096_S256x4096_S64x256_1_1_0_0_n_n none
        (truncf .bf16 (shapeCast S64x4096 x shapeCasts_S64x4096_S64x4096) bitsLt_bf16_f32)
        (truncf .bf16 (wtile q s z) bitsLt_bf16_f32) (constant S64x256 .f32 0x00000000#32) (ix2 b d)
      = tproj x q s z b d := by
  refine (Cert.Lib.matmul_transposedRhs_zero_apply 64 4096 256 none _ _ b d).trans ?_
  refine Finset.sum_congr rfl fun k _ => ?_
  show shapeCast S64x4096 x shapeCasts_S64x4096_S64x4096 (ix2 b k) * wtile q s z (ix2 d k) = _
  rw [shapeCast_self, wtile_apply]

/-- THE ACTIVATION TILE AT AN ENTRY. -/
theorem pay3_apply (v3 : Vec Ideal S64x4096 .f32) (v6 : Vec Ideal S256x4096 .i32) (v7 v8 : Vec Ideal S256x32 .f32)
    (v19 : Vec Ideal S256x4096 .i32) (v20 v21 : Vec Ideal S256x32 .f32) (b : Fin 64) (d : Fin 256) :
    k0_pay3 (F := Ideal) v3 v6 v7 v8 v19 v20 v21 (ix2 b d) = tact v3 v6 v7 v8 v19 v20 v21 b d := by
  show (matmul dot_S64x4096_S256x4096_S64x256_1_1_0_0_n_n none
          (truncf .bf16 (shapeCast S64x4096 v3 shapeCasts_S64x4096_S64x4096) bitsLt_bf16_f32)
          (truncf .bf16 (wtile v6 v7 v8) bitsLt_bf16_f32) (constant S64x256 .f32 0x00000000#32) (ix2 b d)
        * Ideal.logistic (matmul dot_S64x4096_S256x4096_S64x256_1_1_0_0_n_n none
          (truncf .bf16 (shapeCast S64x4096 v3 shapeCasts_S64x4096_S64x4096) bitsLt_bf16_f32)
          (truncf .bf16 (wtile v6 v7 v8) bitsLt_bf16_f32) (constant S64x256 .f32 0x00000000#32) (ix2 b d)))
      * matmul dot_S64x4096_S256x4096_S64x256_1_1_0_0_n_n none
          (truncf .bf16 (shapeCast S64x4096 v3 shapeCasts_S64x4096_S64x4096) bitsLt_bf16_f32)
          (truncf .bf16 (wtile v19 v20 v21) bitsLt_bf16_f32) (constant S64x256 .f32 0x00000000#32) (ix2 b d) = _
  rw [proj_apply, proj_apply]
  rfl

/-- THE RUNNING TOTAL AFTER THE POINT, AT AN ENTRY: what it was plus the point's 256 summands. -/
theorem pay1_apply (v37 : FVec Ideal S64x256 .bf16) (v40 v42 : Vec Ideal S4096x2 .f32) (v43 : Vec Ideal S4096x256 .i32)
    (v55 : Vec Ideal S64x4096 .f32) (b : Fin 64) (h : Fin 4096) :
    k0_pay1 (F := Ideal) v37 v40 v42 v43 v55 (ix2 b h)
      = v55 (ix2 b h) + ∑ d : Fin 256, v37 (ix2 b d) * Cert.Mlp.deq (G := 2) rfl v43 v40 v42 h d := by
  show shapeCast S64x4096 (addf v55 (matmul dot_S64x256_S4096x256_S64x4096_1_1_0_0_n_n none v37
        (truncf .bf16 (wdtile v43 v40 v42) bitsLt_bf16_f32) (constant S64x4096 .f32 0x00000000#32)))
      shapeCasts_S64x4096_S64x4096 (ix2 b h) = _
  rw [shapeCast_self]
  show v55 (ix2 b h) + matmul dot_S64x256_S4096x256_S64x4096_1_1_0_0_n_n none v37
        (truncf .bf16 (wdtile v43 v40 v42) bitsLt_bf16_f32) (constant S64x4096 .f32 0x00000000#32) (ix2 b h) = _
  refine congrArg (v55 (ix2 b h) + ·) ?_
  refine (Cert.Lib.matmul_transposedRhs_zero_apply 64 256 4096 none _ _ b h).trans ?_
  refine Finset.sum_congr rfl fun d _ => ?_
  show v37 (ix2 b d) * wdtile v43 v40 v42 (ix2 h d) = _
  rw [wdtile_apply]

/-- The zeroed running total. -/
theorem pay2_apply (j : S64x4096.Idx) : k0_pay2 (F := Ideal) j = 0 := by
  show shapeCast S64x4096 (broadcast S64x4096 (Scalar.ofBits (F := Ideal) .f32 0x00000000#32)) shapeCasts_S64x4096_S64x4096 j = _
  rw [shapeCast_self]
  exact Ideal.ofBits_zero_f32

end Cert.Mlp.Kernel

end
-- ==== Proof.KernelPieces.lean ====
/-
  What each case of the body leaves in the running total, and in the output at the last point, as the body's
  arithmetic applied to the point's blocks.

  First point: the running total is zeroed, then the point's summands are added to the zeros read back.
  Middle points: the point's summands are added to what the point before left.
  Last point: the same, and the output block is the running total read back.
  The two parameter columns the body loads at the point are columns 2t and 2t + 1 of the 4096 × 86 matrices.
-/
import proofs.«153852_j83416854823015_1_alg».proof.Proof.Gen.KernelIdeal.Frame
import Idealize.ShloMosaic.Lib.Pipeline.Value

set_option maxRecDepth 16384

noncomputable section

namespace Cert.Mlp.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

theorem hz : (![0, 0] : Fin 2 → Nat) = fun _ => 0 := funext fun a => by fin_cases a <;> rfl

/-- The two columns of a 4096 × 86 parameter matrix that the body loads at the point. -/
def cols (i : grid0.Coords) (x : Vec F S4096x86 .f32) : Vec F S4096x2 .f32 :=
  View.ld x (Rect.unit (s := S4096x86) (k0_off1 i) S4096x2.size (k0_off1_inb i))

/-- The point's contribution added to a running total `acc`. -/
def step (i : grid0.Coords) (x0 : Vec F S64x4096 .f32) (x1 : Vec F S256x4096 .i32) (x2 : Vec F S256x32 .f32) (x3 : Vec F S256x32 .f32) (x4 : Vec F S256x4096 .i32) (x5 : Vec F S256x32 .f32) (x6 : Vec F S256x32 .f32) (x7 : Vec F S4096x256 .i32) (x8 : Vec F S4096x86 .f32) (x9 : Vec F S4096x86 .f32) (acc : Vec F S64x4096 .f32) : Vec F S64x4096 .f32 :=
  k0_pay1 (k0_pay3 x0 x1 x2 x3 x4 x5 x6) (cols i x8) (cols i x9) x7 acc

/-- First point: the running total ends at the point's contribution over zeros. -/
theorem sout_A (c : Dev nD) (i : grid0.Coords) (arg1 : Memref sig .tc .vmem S64x4096 .f32) (harg1 : arg1.IsWhole) (arg2 : Memref sig .tc .vmem S256x4096 .i32) (harg2 : arg2.IsWhole) (arg3 : Memref sig .tc .vmem S256x32 .f32) (harg3 : arg3.IsWhole) (arg4 : Memref sig .tc .vmem S256x32 .f32) (harg4 : arg4.IsWhole) (arg5 : Memref sig .tc .vmem S256x4096 .i32) (harg5 : arg5.IsWhole) (arg6 : Memref sig .tc .vmem S256x32 .f32) (harg6 : arg6.IsWhole) (arg7 : Memref sig .tc .vmem S256x32 .f32) (harg7 : arg7.IsWhole) (arg8 : Memref sig .tc .vmem S4096x256 .i32) (harg8 : arg8.IsWhole) (arg9 : Memref sig .tc .vmem S4096x86 .f32) (harg9 : arg9.IsWhole) (arg10 : Memref sig .tc .vmem S4096x86 .f32) (harg10 : arg10.IsWhole) (arg11 : Memref sig .tc .vmem S64x4096 .f32) (harg11 : arg11.IsWhole) (arg12 : Memref sig .tc .vmem S64x4096 .f32) (harg12 : arg12.IsWhole) (hc0 : cond0_0 i) (hc1 : ¬cond0_1 i)
    (x0 : Vec F S64x4096 .f32) (x1 : Vec F S256x4096 .i32) (x2 : Vec F S256x32 .f32) (x3 : Vec F S256x32 .f32) (x4 : Vec F S256x4096 .i32) (x5 : Vec F S256x32 .f32) (x6 : Vec F S256x32 .f32) (x7 : Vec F S4096x256 .i32) (x8 : Vec F S4096x86 .f32) (x9 : Vec F S4096x86 .f32) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 = step i x0 x1 x2 x3 x4 x5 x6 x7 x8 x9 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9)]
  unfold kernelRun0_A
  dsimp only
  sl_unfold_run_names
  rw [View.canon_cons_unit_zero hz, View.readCov_unit_zero _ hz]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S64x4096) hz, View.ld_unit_zero (S := S256x4096) hz, View.ld_unit_zero (S := S256x32) hz, View.ld_unit_zero (S := S4096x256) hz]
  rfl

/-- Middle points: what the point before left, plus the point's contribution. -/
theorem sout_B (c : Dev nD) (i : grid0.Coords) (arg1 : Memref sig .tc .vmem S64x4096 .f32) (harg1 : arg1.IsWhole) (arg2 : Memref sig .tc .vmem S256x4096 .i32) (harg2 : arg2.IsWhole) (arg3 : Memref sig .tc .vmem S256x32 .f32) (harg3 : arg3.IsWhole) (arg4 : Memref sig .tc .vmem S256x32 .f32) (harg4 : arg4.IsWhole) (arg5 : Memref sig .tc .vmem S256x4096 .i32) (harg5 : arg5.IsWhole) (arg6 : Memref sig .tc .vmem S256x32 .f32) (harg6 : arg6.IsWhole) (arg7 : Memref sig .tc .vmem S256x32 .f32) (harg7 : arg7.IsWhole) (arg8 : Memref sig .tc .vmem S4096x256 .i32) (harg8 : arg8.IsWhole) (arg9 : Memref sig .tc .vmem S4096x86 .f32) (harg9 : arg9.IsWhole) (arg10 : Memref sig .tc .vmem S4096x86 .f32) (harg10 : arg10.IsWhole) (arg11 : Memref sig .tc .vmem S64x4096 .f32) (harg11 : arg11.IsWhole) (arg12 : Memref sig .tc .vmem S64x4096 .f32) (harg12 : arg12.IsWhole) (hc0 : ¬cond0_0 i) (hc1 : ¬cond0_1 i)
    (x0 : Vec F S64x4096 .f32) (x1 : Vec F S256x4096 .i32) (x2 : Vec F S256x32 .f32) (x3 : Vec F S256x32 .f32) (x4 : Vec F S256x4096 .i32) (x5 : Vec F S256x32 .f32) (x6 : Vec F S256x32 .f32) (x7 : Vec F S4096x256 .i32) (x8 : Vec F S4096x86 .f32) (x9 : Vec F S4096x86 .f32) (xs0 : Vec F S64x4096 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = step i x0 x1 x2 x3 x4 x5 x6 x7 x8 x9 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun0_B
  dsimp only
  sl_unfold_run_names
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S64x4096) hz, View.ld_unit_zero (S := S256x4096) hz, View.ld_unit_zero (S := S256x32) hz, View.ld_unit_zero (S := S4096x256) hz]
  rfl

/-- Last point, the running total: as at a middle point. -/
theorem sout_C (c : Dev nD) (i : grid0.Coords) (arg1 : Memref sig .tc .vmem S64x4096 .f32) (harg1 : arg1.IsWhole) (arg2 : Memref sig .tc .vmem S256x4096 .i32) (harg2 : arg2.IsWhole) (arg3 : Memref sig .tc .vmem S256x32 .f32) (harg3 : arg3.IsWhole) (arg4 : Memref sig .tc .vmem S256x32 .f32) (harg4 : arg4.IsWhole) (arg5 : Memref sig .tc .vmem S256x4096 .i32) (harg5 : arg5.IsWhole) (arg6 : Memref sig .tc .vmem S256x32 .f32) (harg6 : arg6.IsWhole) (arg7 : Memref sig .tc .vmem S256x32 .f32) (harg7 : arg7.IsWhole) (arg8 : Memref sig .tc .vmem S4096x256 .i32) (harg8 : arg8.IsWhole) (arg9 : Memref sig .tc .vmem S4096x86 .f32) (harg9 : arg9.IsWhole) (arg10 : Memref sig .tc .vmem S4096x86 .f32) (harg10 : arg10.IsWhole) (arg11 : Memref sig .tc .vmem S64x4096 .f32) (harg11 : arg11.IsWhole) (arg12 : Memref sig .tc .vmem S64x4096 .f32) (harg12 : arg12.IsWhole) (hc0 : ¬cond0_0 i) (hc1 : cond0_1 i)
    (x0 : Vec F S64x4096 .f32) (x1 : Vec F S256x4096 .i32) (x2 : Vec F S256x32 .f32) (x3 : Vec F S256x32 .f32) (x4 : Vec F S256x4096 .i32) (x5 : Vec F S256x32 .f32) (x6 : Vec F S256x32 .f32) (x7 : Vec F S4096x256 .i32) (x8 : Vec F S4096x86 .f32) (x9 : Vec F S4096x86 .f32) (xs0 : Vec F S64x4096 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = step i x0 x1 x2 x3 x4 x5 x6 x7 x8 x9 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun0_C
  dsimp only
  sl_unfold_run_names
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S64x4096) hz, View.ld_unit_zero (S := S256x4096) hz, View.ld_unit_zero (S := S256x32) hz, View.ld_unit_zero (S := S4096x256) hz]
  rfl

/-- Last point, the output block: the running total read back. -/
theorem out_C (c : Dev nD) (i : grid0.Coords) (arg1 : Memref sig .tc .vmem S64x4096 .f32) (harg1 : arg1.IsWhole) (arg2 : Memref sig .tc .vmem S256x4096 .i32) (harg2 : arg2.IsWhole) (arg3 : Memref sig .tc .vmem S256x32 .f32) (harg3 : arg3.IsWhole) (arg4 : Memref sig .tc .vmem S256x32 .f32) (harg4 : arg4.IsWhole) (arg5 : Memref sig .tc .vmem S256x4096 .i32) (harg5 : arg5.IsWhole) (arg6 : Memref sig .tc .vmem S256x32 .f32) (harg6 : arg6.IsWhole) (arg7 : Memref sig .tc .vmem S256x32 .f32) (harg7 : arg7.IsWhole) (arg8 : Memref sig .tc .vmem S4096x256 .i32) (harg8 : arg8.IsWhole) (arg9 : Memref sig .tc .vmem S4096x86 .f32) (harg9 : arg9.IsWhole) (arg10 : Memref sig .tc .vmem S4096x86 .f32) (harg10 : arg10.IsWhole) (arg11 : Memref sig .tc .vmem S64x4096 .f32) (harg11 : arg11.IsWhole) (arg12 : Memref sig .tc .vmem S64x4096 .f32) (harg12 : arg12.IsWhole) (hc0 : ¬cond0_0 i) (hc1 : cond0_1 i)
    (x0 : Vec F S64x4096 .f32) (x1 : Vec F S256x4096 .i32) (x2 : Vec F S256x32 .f32) (x3 : Vec F S256x32 .f32) (x4 : Vec F S256x4096 .i32) (x5 : Vec F S256x32 .f32) (x6 : Vec F S256x32 .f32) (x7 : Vec F S4096x256 .i32) (x8 : Vec F S4096x86 .f32) (x9 : Vec F S4096x86 .f32) (xs0 : Vec F S64x4096 .f32) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0 = step i x0 x1 x2 x3 x4 x5 x6 x7 x8 x9 xs0 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 x8 x9 xs0)]
  unfold kernelRun0_C
  dsimp only
  sl_unfold_run_names
  rw [View.canon_unit_zero hz, View.readCov_unit_zero _ hz]
  simp only [View.readAt_eq_ld, harg1.read_unread, harg2.read_unread, harg3.read_unread, harg4.read_unread, harg5.read_unread, harg6.read_unread, harg7.read_unread, harg8.read_unread, harg9.read_unread, harg10.read_unread, harg12.read_unread,
    View.ld_unit_zero (S := S64x4096) hz, View.ld_unit_zero (S := S256x4096) hz, View.ld_unit_zero (S := S256x32) hz, View.ld_unit_zero (S := S4096x256) hz]
  rfl

end Cert.Mlp.Kernel

end
-- ==== Proof.KernelStep.lean ====
/-
  One grid point's step, at an entry, in terms of the argument arrays.

  At point n the body's blocks are: all of x; rows 256·n … 256·n + 255 of the gate and up codes, scales and zeros;
  columns 256·n … 256·n + 255 of the down codes; and columns 2·n, 2·n + 1 of the down scales and zeros. Column
  256·n + d of the down matrix lies in group (256·n + d) / 128 = 2·n + d / 128, which is why those two parameter
  columns are the right ones. Hence the tile of activations the body forms is a[b, 256·n + d], the block of the down
  matrix it dequantizes is Wd[h, 256·n + d], and the step adds tile n's 256 summands to the running total.
-/
import proofs.«153852_j83416854823015_1_alg».proof.Proof.KernelPayload
import proofs.«153852_j83416854823015_1_alg».proof.Proof.KernelPieces

noncomputable section

open scoped BigOperators

namespace Cert.Mlp.Kernel

open Idealize.ShloMosaic Idealize.ShloMosaic.ValueIdx Cert.KernelIdeal Cert.KernelIdeal.Gen

variable (a : Cert.Mlp.Args) (n : ℕ) (hn : n < 43)

/-- A 256-row block of a grouped 11008 × 4096 matrix dequantizes to the matrix's own dequantized rows. -/
theorem deq_rows (q : Vec Ideal S256x4096 .i32) (s z : Vec Ideal S256x32 .f32)
    (Q : Vec Ideal ⟨2, ![11008, 4096]⟩ .i32) (S Z : FVec Ideal ⟨2, ![11008, 32]⟩ .f32)
    (hq : ∀ (d : Fin 256) (k : Fin 4096), q (ix2 d k) = Q (ix2 ⟨256 * n + d.val, by have := d.isLt; omega⟩ k))
    (hs : ∀ (d : Fin 256) (g : Fin 32), s (ix2 d g) = S (ix2 ⟨256 * n + d.val, by have := d.isLt; omega⟩ g))
    (hz' : ∀ (d : Fin 256) (g : Fin 32), z (ix2 d g) = Z (ix2 ⟨256 * n + d.val, by have := d.isLt; omega⟩ g))
    (d : Fin 256) (k : Fin 4096) :
    Cert.Mlp.deq (G := 32) rfl q s z d k
      = Cert.Mlp.deq (G := 32) rfl Q S Z ⟨256 * n + d.val, by have := d.isLt; omega⟩ k := by
  unfold Cert.Mlp.deq
  rw [hq, hs, hz']

/-- So the block's projection of the activations is the projection at position 256·n + d. -/
theorem tproj_rows (x : Vec Ideal S64x4096 .f32) (q : Vec Ideal S256x4096 .i32) (s z : Vec Ideal S256x32 .f32)
    (X : FVec Ideal ⟨3, ![64, 1, 4096]⟩ .f32)
    (Q : Vec Ideal ⟨2, ![11008, 4096]⟩ .i32) (S Z : FVec Ideal ⟨2, ![11008, 32]⟩ .f32)
    (hx : ∀ (b : Fin 64) (k : Fin 4096), x (ix2 b k) = X (ix3 b (0 : Fin 1) k))
    (hq : ∀ (d : Fin 256) (k : Fin 4096), q (ix2 d k) = Q (ix2 ⟨256 * n + d.val, by have := d.isLt; omega⟩ k))
    (hs : ∀ (d : Fin 256) (g : Fin 32), s (ix2 d g) = S (ix2 ⟨256 * n + d.val, by have := d.isLt; omega⟩ g))
    (hz' : ∀ (d : Fin 256) (g : Fin 32), z (ix2 d g) = Z (ix2 ⟨256 * n + d.val, by have := d.isLt; omega⟩ g))
    (b : Fin 64) (d : Fin 256) :
    tproj x q s z b d = Cert.Mlp.proj X Q S Z b ⟨256 * n + d.val, by have := d.isLt; omega⟩ := by
  unfold tproj Cert.Mlp.proj
  refine Finset.sum_congr rfl fun k _ => ?_
  rw [hx, deq_rows n hn q s z Q S Z hq hs hz' d k]

/-- A 256-column block of the grouped 4096 × 11008 matrix, with the two parameter columns of its groups, dequantizes
    to the matrix's own dequantized columns: (256·n + d) / 128 = 2·n + d / 128. -/
theorem deq_cols (q : Vec Ideal S4096x256 .i32) (s z : Vec Ideal S4096x2 .f32)
    (Q : Vec Ideal ⟨2, ![4096, 11008]⟩ .i32) (S Z : FVec Ideal ⟨2, ![4096, 86]⟩ .f32)
    (hq : ∀ (h : Fin 4096) (d : Fin 256), q (ix2 h d) = Q (ix2 h ⟨256 * n + d.val, by have := d.isLt; omega⟩))
    (hs : ∀ (h : Fin 4096) (e : Fin 2), s (ix2 h e) = S (ix2 h ⟨2 * n + e.val, by have := e.isLt; omega⟩))
    (hz' : ∀ (h : Fin 4096) (e : Fin 2), z (ix2 h e) = Z (ix2 h ⟨2 * n + e.val, by have := e.isLt; omega⟩))
    (h : Fin 4096) (d : Fin 256) :
    Cert.Mlp.deq (G := 2) rfl q s z h d
      = Cert.Mlp.deq (G := 86) rfl Q S Z h ⟨256 * n + d.val, by have := d.isLt; omega⟩ := by
  unfold Cert.Mlp.deq Cert.Mlp.grp
  rw [hq, hs, hz']
  have e : (⟨2 * n + d.val / 128, by have := d.isLt; omega⟩ : Fin 86)
      = ⟨(256 * n + d.val) / 128, by have := d.isLt; omega⟩ := Fin.ext (by show 2 * n + d.val / 128 = (256 * n + d.val) / 128; omega)
  exact congrArg (fun g : Fin 86 => ((FloatOps.sitofp (F := Ideal) .f32 (Q (ix2 h ⟨256 * n + d.val, _⟩)) : EReal) - Z (ix2 h g)) * S (ix2 h g)) e

/-- THE STEP AT AN ENTRY: the running total plus tile n's summands. -/
theorem step_apply (i : grid0.Coords) (x0 : Vec Ideal S64x4096 .f32) (x1 : Vec Ideal S256x4096 .i32) (x2 : Vec Ideal S256x32 .f32) (x3 : Vec Ideal S256x32 .f32) (x4 : Vec Ideal S256x4096 .i32) (x5 : Vec Ideal S256x32 .f32) (x6 : Vec Ideal S256x32 .f32) (x7 : Vec Ideal S4096x256 .i32) (x8 : Vec Ideal S4096x86 .f32) (x9 : Vec Ideal S4096x86 .f32) (accv : Vec Ideal S64x4096 .f32)
    (h0 : ∀ (b : Fin 64) (k : Fin 4096), x0 (ix2 b k) = a.x (ix3 b (0 : Fin 1) k))
    (h1 : ∀ (d : Fin 256) (k : Fin 4096), x1 (ix2 d k) = a.gq (ix2 ⟨256 * n + d.val, by have := d.isLt; omega⟩ k))
    (h2 : ∀ (d : Fin 256) (g : Fin 32), x2 (ix2 d g) = a.gs (ix2 ⟨256 * n + d.val, by have := d.isLt; omega⟩ g))
    (h3 : ∀ (d : Fin 256) (g : Fin 32), x3 (ix2 d g) = a.gz (ix2 ⟨256 * n + d.val, by have := d.isLt; omega⟩ g))
    (h4 : ∀ (d : Fin 256) (k : Fin 4096), x4 (ix2 d k) = a.uq (ix2 ⟨256 * n + d.val, by have := d.isLt; omega⟩ k))
    (h5 : ∀ (d : Fin 256) (g : Fin 32), x5 (ix2 d g) = a.us (ix2 ⟨256 * n + d.val, by have := d.isLt; omega⟩ g))
    (h6 : ∀ (d : Fin 256) (g : Fin 32), x6 (ix2 d g) = a.uz (ix2 ⟨256 * n + d.val, by have := d.isLt; omega⟩ g))
    (h7 : ∀ (h : Fin 4096) (d : Fin 256), x7 (ix2 h d) = a.dq (ix2 h ⟨256 * n + d.val, by have := d.isLt; omega⟩))
    (h8 : ∀ (h : Fin 4096) (e : Fin 2), cols i x8 (ix2 h e) = a.ds (ix2 h ⟨2 * n + e.val, by have := e.isLt; omega⟩))
    (h9 : ∀ (h : Fin 4096) (e : Fin 2), cols i x9 (ix2 h e) = a.dz (ix2 h ⟨2 * n + e.val, by have := e.isLt; omega⟩))
    (b : Fin 64) (h : Fin 4096) :
    step i x0 x1 x2 x3 x4 x5 x6 x7 x8 x9 accv (ix2 b h) = accv (ix2 b h) + Cert.Mlp.tile a n b h := by
  unfold step
  rw [pay1_apply, Cert.Mlp.tile, dif_pos hn]
  refine congrArg (accv (ix2 b h) + ·) (Finset.sum_congr rfl fun d _ => ?_)
  rw [pay3_apply, deq_cols n hn x7 (cols i x8) (cols i x9) a.dq a.ds a.dz h7 h8 h9 h d]
  unfold tact Cert.Mlp.term Cert.Mlp.act
  rw [tproj_rows n hn x0 x1 x2 x3 a.x a.gq a.gs a.gz h0 h1 h2 h3 b d,
    tproj_rows n hn x0 x4 x5 x6 a.x a.uq a.us a.uz h0 h4 h5 h6 b d]

end Cert.Mlp.Kernel

end
-- ==== Proof.KernelHost.lean ====
/-
  The two host operations around the kernel's one region are reshapes that insert or drop an axis of extent one.

  Before the region the activations x, of shape 64 × 1 × 4096, are viewed as 64 × 4096: entry (b, k) of the view is
  x[b, 0, k], both sitting at row-major position b · 4096 + k. After the region the 64 × 4096 result is viewed as
  64 × 1 × 4096: entry (b, z, h) of the view is entry (b, h) of the result, because z < 1 forces z = 0.
-/
import proofs.«153852_j83416854823015_1_alg».proof.Proof.Gen.KernelIdeal.Frame
import Idealize.ShloMosaic.Lib.ValueIdx
import Idealize.ShloMosaic.Lib.Pipeline.Value
import Idealize.ShloMosaic.Lib.StableHlo.Run

noncomputable section

namespace Cert.Mlp.Host

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (c : Dev nD)

/-- When the region is entered, the 64 × 4096 array is the reshape of the launched 64 × 1 × 4096 activations. -/
theorem V_main_v0_eq :
    (V m c main_v0 : S64x4096.Idx → EReal)
      = shapeCast S64x4096 (m ((c : Thread nD τ).loc main_arg0)) shapeCasts_S64x1x4096_S64x4096 := by
  show StableHlo.after hostOps0 (fun b => m (c, b)) (Proc.devRef .tc main_v0) = _
  after_results
  rfl

/-- (H1) Entry (b, k) of the array window 0 stages is the launched activations' entry (b, 0, k). -/
theorem V_main_v0_apply (b : Fin 64) (k : Fin 4096) :
    (V m c main_v0 : S64x4096.Idx → EReal) (ix2 b k)
      = (m ((c : Thread nD τ).loc main_arg0) : S64x1x4096.Idx → EReal) (ix3 b (0 : Fin 1) k) := by
  rw [V_main_v0_eq]
  exact shapeCast_apply _ shapeCasts_S64x1x4096_S64x4096 (ix2 b k) (ix3 b (0 : Fin 1) k) (by
    rw [Shape.rowMajor_val_two, Shape.rowMajor_val_three]
    show (b.val * 1 + 0) * 4096 + k.val = b.val * 4096 + k.val
    omega)

/-- The program's result array is the reshape of the final contents of the output window's 64 × 4096 array. -/
theorem tail_eq :
    (Pipeline.afterTail₀ cfgs (dats m) 0 (V0 m) [hostOps1] c main_v2 : S64x1x4096.Idx → EReal)
      = shapeCast S64x1x4096 ((dats m 0 c).arrAt 10 cfg0.N : S64x4096.Idx → EReal) shapeCasts_S64x4096_S64x1x4096 := by
  unfold Pipeline.afterTail₀
  show StableHlo.after hostOps1 _ (Proc.devRef .tc main_v2) = _
  after_results
  exact congrArg (fun y => shapeCast S64x1x4096 y shapeCasts_S64x4096_S64x1x4096)
    (Pipeline.withArrays_arr spec0 launch0.win.arr_inj c _ _ 10)

/-- (H2) Entry (b, z, h) of the program's result is entry (b, h) of the output window's final array. -/
theorem tail_apply (b : Fin 64) (z : Fin 1) (h : Fin 4096) :
    (Pipeline.afterTail₀ cfgs (dats m) 0 (V0 m) [hostOps1] c main_v2 : S64x1x4096.Idx → EReal) (ix3 b z h)
      = ((dats m 0 c).arrAt 10 cfg0.N : S64x4096.Idx → EReal) (ix2 b h) := by
  rw [tail_eq]
  exact shapeCast_apply _ shapeCasts_S64x4096_S64x1x4096 (ix3 b z h) (ix2 b h) (by
    rw [Shape.rowMajor_val_two, Shape.rowMajor_val_three]
    have hz := z.isLt
    show b.val * 4096 + h.val = (b.val * 1 + z.val) * 4096 + h.val
    omega)

end Cert.Mlp.Host

end
-- ==== Proof.KernelBlocks.lean ====
/-
  Each input block of the kernel's grid point t, as a sub-rectangle of the launched argument arrays.

  The grid has 43 points. At point t the gate and up matrices (codes, scales, zero points) are staged 256 rows at a time:
  row d of the block is row 256·t + d of the array. The down codes are staged 256 columns at a time: column d of the block is
  column 256·t + d. The down scales and zero points, and the reshaped activations, are staged whole. Inside the body, the two
  columns of the down scales and zero points loaded at the point are columns 2·t and 2·t + 1.
  A block's coordinate on an axis is always  block index × block size + coordinate inside the block.
-/
import proofs.«153852_j83416854823015_1_alg».proof.Proof.KernelPieces
import proofs.«153852_j83416854823015_1_alg».proof.Proof.KernelHost
import proofs.«153852_j83416854823015_1_alg».proof.Proof.Spec

set_option maxRecDepth 16384

noncomputable section

namespace Cert.Mlp.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

/-- The block indices of the row-blocked windows, decided over the grid: block t on the rows, block 0 on the columns. -/
theorem idx_rows : ∀ t : Fin cfg0.N,
    win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The block indices of the column-blocked window and of the windows staged whole. -/
theorem idx_rest : ∀ t : Fin cfg0.N,
    win0_7.index t (0 : Fin 2) = 0 ∧ win0_7.index t (1 : Fin 2) = t.val
    ∧ win0_0.index t (0 : Fin 2) = 0 ∧ win0_0.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- The offsets of the body's two-column load: row 0, column 2·t. -/
theorem off_facts : ∀ t : Fin cfg0.N,
    k0_off1 (grid0.coords t) (0 : Fin 2) = 0 ∧ k0_off1 (grid0.coords t) (1 : Fin 2) = 2 * t.val :=
  (by decide +kernel : ∀ t : Fin grid0.N, _)

variable (m : (ℓ : Loc nD τ sig) → Buf (Elt Ideal) ℓ) (c : Dev nD)

/-- The ten argument arrays as launched on core c. -/
def argsOf : Cert.Mlp.Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9)⟩

/-- The activations' block is the whole reshaped array: entry (b, k) is x[b, 0, k]. -/
theorem iblk0 (t : Fin cfg0.N) (b : Fin 64) (k : Fin 4096) :
    (iblk m c 0 t : S64x4096.Idx → EReal) (ix2 b k) = (argsOf m c).x (ix3 b (0 : Fin 1) k) := by
  obtain ⟨-, -, e0, e1, -⟩ := idx_rest t
  have hb := b.isLt
  have hk := k.isLt
  have he : ((cfg0.win 0).blk t).view.emb (ix2 b k) = ix2 b k := funext fun a => Fin.ext (by
    match a with
    | ⟨0, _⟩ =>
      show win0_0.index t (0 : Fin 2) * 64 + 1 * b.val = b.val
      rw [e0]; omega
    | ⟨1, _⟩ =>
      show win0_0.index t (1 : Fin 2) * 4096 + 1 * k.val = k.val
      rw [e1]; omega)
  show V m c main_v0 (((cfg0.win 0).blk t).view.emb (ix2 b k)) = _
  rw [he]
  exact Cert.Mlp.Host.V_main_v0_apply m c b k

/-- The gate codes' block: row d is row 256·t + d of the array. -/
theorem iblk1 (t : Fin cfg0.N) (d : Fin 256) (k : Fin 4096) :
    iblk m c 1 t (ix2 d k)
      = (argsOf m c).gq (ix2 ⟨256 * t.val + d.val, by
          have hN : t.val < 43 := lt_of_lt_of_eq t.isLt (show cfg0.N = 43 from N_0)
          have hd := d.isLt
          omega⟩ k) := by
  obtain ⟨e0, e1, -⟩ := idx_rows t
  have hN : t.val < 43 := lt_of_lt_of_eq t.isLt (show cfg0.N = 43 from N_0)
  have hd := d.isLt
  have hk := k.isLt
  show V m c main_arg1 (((cfg0.win 1).blk t).view.emb (ix2 d k)) = _
  rw [V_main_arg1]
  refine congrArg _ (funext fun a => Fin.ext ?_)
  match a with
  | ⟨0, _⟩ =>
    show win0_1.index t (0 : Fin 2) * 256 + 1 * d.val = 256 * t.val + d.val
    rw [e0]; omega
  | ⟨1, _⟩ =>
    show win0_1.index t (1 : Fin 2) * 4096 + 1 * k.val = k.val
    rw [e1]; omega

/-- The gate scales' block: row d is row 256·t + d of the array. -/
theorem iblk2 (t : Fin cfg0.N) (d : Fin 256) (g : Fin 32) :
    iblk m c 2 t (ix2 d g)
      = (argsOf m c).gs (ix2 ⟨256 * t.val + d.val, by
          have hN : t.val < 43 := lt_of_lt_of_eq t.isLt (show cfg0.N = 43 from N_0)
          have hd := d.isLt
          omega⟩ g) := by
  obtain ⟨-, -, e0, e1, -⟩ := idx_rows t
  have hN : t.val < 43 := lt_of_lt_of_eq t.isLt (show cfg0.N = 43 from N_0)
  have hd := d.isLt
  have hi := g.isLt
  show V m c main_arg2 (((cfg0.win 2).blk t).view.emb (ix2 d g)) = _
  rw [V_main_arg2]
  refine congrArg _ (funext fun a => Fin.ext ?_)
  match a with
  | ⟨0, _⟩ =>
    show win0_2.index t (0 : Fin 2) * 256 + 1 * d.val = 256 * t.val + d.val
    rw [e0]; omega
  | ⟨1, _⟩ =>
    show win0_2.index t (1 : Fin 2) * 32 + 1 * g.val = g.val
    rw [e1]; omega

/-- The gate zero points' block: row d is row 256·t + d of the array. -/
theorem iblk3 (t : Fin cfg0.N) (d : Fin 256) (g : Fin 32) :
    iblk m c 3 t (ix2 d g)
      = (argsOf m c).gz (ix2 ⟨256 * t.val + d.val, by
          have hN : t.val < 43 := lt_of_lt_of_eq t.isLt (show cfg0.N = 43 from N_0)
          have hd := d.isLt
          omega⟩ g) := by
  obtain ⟨-, -, -, -, e0, e1, -⟩ := idx_rows t
  have hN : t.val < 43 := lt_of_lt_of_eq t.isLt (show cfg0.N = 43 from N_0)
  have hd := d.isLt
  have hi := g.isLt
  show V m c main_arg3 (((cfg0.win 3).blk t).view.emb (ix2 d g)) = _
  rw [V_main_arg3]
  refine congrArg _ (funext fun a => Fin.ext ?_)
  match a with
  | ⟨0, _⟩ =>
    show win0_3.index t (0 : Fin 2) * 256 + 1 * d.val = 256 * t.val + d.val
    rw [e0]; omega
  | ⟨1, _⟩ =>
    show win0_3.index t (1 : Fin 2) * 32 + 1 * g.val = g.val
    rw [e1]; omega

/-- The up codes' block: row d is row 256·t + d of the array. -/
theorem iblk4 (t : Fin cfg0.N) (d : Fin 256) (k : Fin 4096) :
    iblk m c 4 t (ix2 d k)
      = (argsOf m c).uq (ix2 ⟨256 * t.val + d.val, by
          have hN : t.val < 43 := lt_of_lt_of_eq t.isLt (show cfg0.N = 43 from N_0)
          have hd := d.isLt
          omega⟩ k) := by
  obtain ⟨-, -, -, -, -, -, e0, e1, -⟩ := idx_rows t
  have hN : t.val < 43 := lt_of_lt_of_eq t.isLt (show cfg0.N = 43 from N_0)
  have hd := d.isLt
  have hi := k.isLt
  show V m c main_arg4 (((cfg0.win 4).blk t).view.emb (ix2 d k)) = _
  rw [V_main_arg4]
  refine congrArg _ (funext fun a => Fin.ext ?_)
  match a with
  | ⟨0, _⟩ =>
    show win0_4.index t (0 : Fin 2) * 256 + 1 * d.val = 256 * t.val + d.val
    rw [e0]; omega
  | ⟨1, _⟩ =>
    show win0_4.index t (1 : Fin 2) * 4096 + 1 * k.val = k.val
    rw [e1]; omega

/-- The up scales' block: row d is row 256·t + d of the array. -/
theorem iblk5 (t : Fin cfg0.N) (d : Fin 256) (g : Fin 32) :
    iblk m c 5 t (ix2 d g)
      = (argsOf m c).us (ix2 ⟨256 * t.val + d.val, by
          have hN : t.val < 43 := lt_of_lt_of_eq t.isLt (show cfg0.N = 43 from N_0)
          have hd := d.isLt
          omega⟩ g) := by
  obtain ⟨-, -, -, -, -, -, -, -, e0, e1, -⟩ := idx_rows t
  have hN : t.val < 43 := lt_of_lt_of_eq t.isLt (show cfg0.N = 43 from N_0)
  have hd := d.isLt
  have hi := g.isLt
  show V m c main_arg5 (((cfg0.win 5).blk t).view.emb (ix2 d g)) = _
  rw [V_main_arg5]
  refine congrArg _ (funext fun a => Fin.ext ?_)
  match a with
  | ⟨0, _⟩ =>
    show win0_5.index t (0 : Fin 2) * 256 + 1 * d.val = 256 * t.val + d.val
    rw [e0]; omega
  | ⟨1, _⟩ =>
    show win0_5.index t (1 : Fin 2) * 32 + 1 * g.val = g.val
    rw [e1]; omega

/-- The up zero points' block: row d is row 256·t + d of the array. -/
theorem iblk6 (t : Fin cfg0.N) (d : Fin 256) (g : Fin 32) :
    iblk m c 6 t (ix2 d g)
      = (argsOf m c).uz (ix2 ⟨256 * t.val + d.val, by
          have hN : t.val < 43 := lt_of_lt_of_eq t.isLt (show cfg0.N = 43 from N_0)
          have hd := d.isLt
          omega⟩ g) := by
  obtain ⟨-, -, -, -, -, -, -, -, -, -, e0, e1⟩ := idx_rows t
  have hN : t.val < 43 := lt_of_lt_of_eq t.isLt (show cfg0.N = 43 from N_0)
  have hd := d.isLt
  have hi := g.isLt
  show V m c main_arg6 (((cfg0.win 6).blk t).view.emb (ix2 d g)) = _
  rw [V_main_arg6]
  refine congrArg _ (funext fun a => Fin.ext ?_)
  match a with
  | ⟨0, _⟩ =>
    show win0_6.index t (0 : Fin 2) * 256 + 1 * d.val = 256 * t.val + d.val
    rw [e0]; omega
  | ⟨1, _⟩ =>
    show win0_6.index t (1 : Fin 2) * 32 + 1 * g.val = g.val
    rw [e1]; omega

/-- The down codes' block: column d is column 256·t + d of the array. -/
theorem iblk7 (t : Fin cfg0.N) (h : Fin 4096) (d : Fin 256) :
    iblk m c 7 t (ix2 h d)
      = (argsOf m c).dq (ix2 h ⟨256 * t.val + d.val, by
          have hN : t.val < 43 := lt_of_lt_of_eq t.isLt (show cfg0.N = 43 from N_0)
          have hd := d.isLt
          omega⟩) := by
  obtain ⟨e0, e1, -⟩ := idx_rest t
  have hN : t.val < 43 := lt_of_lt_of_eq t.isLt (show cfg0.N = 43 from N_0)
  have hd := d.isLt
  have hh := h.isLt
  show V m c main_arg7 (((cfg0.win 7).blk t).view.emb (ix2 h d)) = _
  rw [V_main_arg7]
  refine congrArg _ (funext fun a => Fin.ext ?_)
  match a with
  | ⟨0, _⟩ =>
    show win0_7.index t (0 : Fin 2) * 4096 + 1 * h.val = h.val
    rw [e0]; omega
  | ⟨1, _⟩ =>
    show win0_7.index t (1 : Fin 2) * 256 + 1 * d.val = 256 * t.val + d.val
    rw [e1]; omega

/-- The down scales' array is staged whole. -/
theorem iblk8 (t : Fin cfg0.N) (h : Fin 4096) (g : Fin 86) :
    iblk m c 8 t (ix2 h g) = (argsOf m c).ds (ix2 h g) := by
  obtain ⟨-, -, -, -, e0, e1, -⟩ := idx_rest t
  have hh := h.isLt
  have hg := g.isLt
  show V m c main_arg8 (((cfg0.win 8).blk t).view.emb (ix2 h g)) = _
  rw [V_main_arg8]
  refine congrArg _ (funext fun a => Fin.ext ?_)
  match a with
  | ⟨0, _⟩ =>
    show win0_8.index t (0 : Fin 2) * 4096 + 1 * h.val = h.val
    rw [e0]; omega
  | ⟨1, _⟩ =>
    show win0_8.index t (1 : Fin 2) * 86 + 1 * g.val = g.val
    rw [e1]; omega

/-- The down zero points' array is staged whole. -/
theorem iblk9 (t : Fin cfg0.N) (h : Fin 4096) (g : Fin 86) :
    iblk m c 9 t (ix2 h g) = (argsOf m c).dz (ix2 h g) := by
  obtain ⟨-, -, -, -, -, -, e0, e1⟩ := idx_rest t
  have hh := h.isLt
  have hg := g.isLt
  show V m c main_arg9 (((cfg0.win 9).blk t).view.emb (ix2 h g)) = _
  rw [V_main_arg9]
  refine congrArg _ (funext fun a => Fin.ext ?_)
  match a with
  | ⟨0, _⟩ =>
    show win0_9.index t (0 : Fin 2) * 4096 + 1 * h.val = h.val
    rw [e0]; omega
  | ⟨1, _⟩ =>
    show win0_9.index t (1 : Fin 2) * 86 + 1 * g.val = g.val
    rw [e1]; omega

/-- The body's two-column load at point t: column e of the loaded pair is column 2·t + e of the matrix. -/
theorem cols_apply (t : Fin cfg0.N) (x : Vec Ideal S4096x86 .f32) (h : Fin 4096) (e : Fin 2) :
    cols (F := Ideal) (grid0.coords t) x (ix2 h e)
      = x (ix2 h ⟨2 * t.val + e.val, by
          have hN : t.val < 43 := lt_of_lt_of_eq t.isLt (show cfg0.N = 43 from N_0)
          have he := e.isLt
          omega⟩) := by
  obtain ⟨f0, f1⟩ := off_facts t
  have hN : t.val < 43 := lt_of_lt_of_eq t.isLt (show cfg0.N = 43 from N_0)
  have he := e.isLt
  have hh := h.isLt
  unfold cols
  show x ((Rect.unit (s := S4096x86) (k0_off1 (grid0.coords t)) S4096x2.size (k0_off1_inb (grid0.coords t))).emb (ix2 h e)) = x _
  refine congrArg x (funext fun a => Fin.ext ?_)
  match a with
  | ⟨0, _⟩ =>
    show k0_off1 (grid0.coords t) (0 : Fin 2) + 1 * h.val = h.val
    rw [f0]; omega
  | ⟨1, _⟩ =>
    show k0_off1 (grid0.coords t) (1 : Fin 2) + 1 * e.val = 2 * t.val + e.val
    rw [f1]; omega

end Cert.Mlp.Kernel

end
-- ==== Proof.KernelRun.lean ====
/-
  The running total point by point, and the result.

  By induction over the 43 grid points the carried running total after point n holds, at entry (b, h), the sum of
  tiles 0 … n of output entry (b, h): the first point zeroes it and adds tile 0, every later point adds its own tile
  to what the point before left. The output block is written back once, at the last point, where it is the running
  total after all 43 tiles, that is, the whole sum over the 11008 intermediate positions. That one block is the
  whole 64 × 4096 array, and the program's result is its reshape to 64 × 1 × 4096.
-/
import proofs.«153852_j83416854823015_1_alg».proof.Proof.KernelStep
import proofs.«153852_j83416854823015_1_alg».proof.Proof.KernelBlocks

set_option maxRecDepth 16384

noncomputable section

namespace Cert.Mlp.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable (m : (ℓ : Loc nD τ sig) → Buf (Elt Ideal) ℓ) (c : Dev nD)

theorem lt43 (t : Fin cfg0.N) : t.val < 43 := lt_of_lt_of_eq t.isLt (show cfg0.N = 43 from N_0)

/-- The step at point t adds tile t of the launched arrays. -/
theorem step_at (t : Fin cfg0.N) (accv : Vec Ideal S64x4096 .f32) (b : Fin 64) (h : Fin 4096) :
    step (grid0.coords t) (iblk m c 0 t) (iblk m c 1 t) (iblk m c 2 t) (iblk m c 3 t) (iblk m c 4 t) (iblk m c 5 t) (iblk m c 6 t) (iblk m c 7 t) (iblk m c 8 t) (iblk m c 9 t) accv (ix2 b h)
      = accv (ix2 b h) + Cert.Mlp.tile (argsOf m c) t.val b h :=
  step_apply (argsOf m c) t.val (lt43 t) (grid0.coords t) (iblk m c 0 t) (iblk m c 1 t) (iblk m c 2 t) (iblk m c 3 t) (iblk m c 4 t) (iblk m c 5 t) (iblk m c 6 t) (iblk m c 7 t) (iblk m c 8 t) (iblk m c 9 t) accv
    (iblk0 m c t) (iblk1 m c t) (iblk2 m c t) (iblk3 m c t) (iblk4 m c t) (iblk5 m c t) (iblk6 m c t) (iblk7 m c t)
    (fun h e => (cols_apply t (iblk m c 8 t) h e).trans (iblk8 m c t h _))
    (fun h e => (cols_apply t (iblk m c 9 t) h e).trans (iblk9 m c t h _)) b h

/-- First point: the running total is tile 0 (added to zeros). -/
theorem scratch_A (t : Fin cfg0.N) (h0 : t.val % 43 = 0) (h1 : ¬t.val % 43 = 42) (b : Fin 64) (h : Fin 4096) :
    ((outsAt0 m c t.val t.isLt).2 : S64x4096.Idx → EReal) (ix2 b h) = Cert.Mlp.tile (argsOf m c) t.val b h := by
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)) (ix2 b h)).trans ?_
  refine (step_at m c t _ b h).trans ?_
  rw [pay2_apply, zero_add]

/-- A middle point: what the point before left, plus the point's tile. -/
theorem scratch_B (t : Fin cfg0.N) (h0 : ¬t.val % 43 = 0) (h1 : ¬t.val % 43 = 42) (b : Fin 64) (h : Fin 4096) :
    ((outsAt0 m c t.val t.isLt).2 : S64x4096.Idx → EReal) (ix2 b h)
      = ((outsAt0 m c (t.val - 1) (Nat.lt_of_le_of_lt (Nat.sub_le _ _) t.isLt)).2 : S64x4096.Idx → EReal) (ix2 b h) + Cert.Mlp.tile (argsOf m c) t.val b h := by
  rw [outsAt0_B m c t h0 h1]
  dsimp only
  refine (congrFun (sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2) (ix2 b h)).trans ?_
  exact step_at m c t _ b h

/-- The last point, the running total: the same. -/
theorem scratch_C (t : Fin cfg0.N) (h0 : ¬t.val % 43 = 0) (h1 : t.val % 43 = 42) (b : Fin 64) (h : Fin 4096) :
    ((outsAt0 m c t.val t.isLt).2 : S64x4096.Idx → EReal) (ix2 b h)
      = ((outsAt0 m c (t.val - 1) (Nat.lt_of_le_of_lt (Nat.sub_le _ _) t.isLt)).2 : S64x4096.Idx → EReal) (ix2 b h) + Cert.Mlp.tile (argsOf m c) t.val b h := by
  rw [outsAt0_C m c t h0 h1]
  dsimp only
  refine (congrFun (sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2) (ix2 b h)).trans ?_
  exact step_at m c t _ b h

/-- The last point, the output block: the same value as the running total. -/
theorem output_C (t : Fin cfg0.N) (h0 : ¬t.val % 43 = 0) (h1 : t.val % 43 = 42) (b : Fin 64) (h : Fin 4096) :
    ((outsAt0 m c t.val t.isLt).1 : S64x4096.Idx → EReal) (ix2 b h)
      = ((outsAt0 m c (t.val - 1) (Nat.lt_of_le_of_lt (Nat.sub_le _ _) t.isLt)).2 : S64x4096.Idx → EReal) (ix2 b h) + Cert.Mlp.tile (argsOf m c) t.val b h := by
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2) (ix2 b h)).trans ?_
  exact step_at m c t _ b h

/-- THE RUNNING TOTAL AFTER POINT n IS THE SUM OF TILES 0 … n. -/
theorem scratch_eq : ∀ (n : ℕ) (hn : n < cfg0.N) (b : Fin 64) (h : Fin 4096),
    ((outsAt0 m c n hn).2 : S64x4096.Idx → EReal) (ix2 b h) = Cert.Mlp.acc (argsOf m c) n b h := by
  intro n
  induction n with
  | zero =>
    intro hn b h
    exact scratch_A m c ⟨0, hn⟩ (Nat.zero_mod 43) (by show ¬(0 % 43 = 42); decide) b h
  | succ n ih =>
    intro hn b h
    have hN : n + 1 < 43 := lt_of_lt_of_eq hn (show cfg0.N = 43 from N_0)
    have h0 : ¬(n + 1) % 43 = 0 := by omega
    rw [Cert.Mlp.acc_succ, ← ih (Nat.lt_of_succ_lt hn) b h]
    by_cases h1 : (n + 1) % 43 = 42
    · exact scratch_C m c ⟨n + 1, hn⟩ h0 h1 b h
    · exact scratch_B m c ⟨n + 1, hn⟩ h0 h1 b h

/-- The result as a 64 × 4096 array: entry (b, h) is the whole sum. -/
def Gk : S64x4096.Idx → EReal := fun j => Cert.Mlp.out (argsOf m c) (j 0) (j 1)

/-- The output window's one block sits at block index (0, 0) at every point. -/
theorem idx10 : ∀ t : Fin cfg0.N, win0_10.index t (0 : Fin 2) = 0 ∧ win0_10.index t (1 : Fin 2) = 0 :=
  (by decide +kernel : ∀ t : Fin grid0.N, _)

/-- At the last point the output block holds the whole sum. -/
theorem output_last (t : Fin cfg0.N) (h1 : t.val % 43 = 42) (b : Fin 64) (h : Fin 4096) :
    ((outsAt0 m c t.val t.isLt).1 : S64x4096.Idx → EReal) (ix2 b h) = Cert.Mlp.out (argsOf m c) b h := by
  have hN := lt43 t
  have h0 : ¬t.val % 43 = 0 := by omega
  have h42 : t.val = 42 := by omega
  rw [output_C m c t h0 h1 b h, ← scratch_C m c t h0 h1 b h, scratch_eq m c t.val t.isLt b h, h42, Cert.Mlp.acc_last]

/-- WHAT THE LAST POINT WRITES BACK is the block of the result. -/
theorem flushed_eq (t : Fin cfg0.N) (hf : (cfg0.win 10).flush t = true) :
    (dats m 0 c).flushed 10 t = ((cfg0.win 10).blk t).view.read (Elt Ideal) (Gk m c) := by
  have h1 : t.val % 43 = 42 := (flush0_10 t).mp hf
  show (cfg0.win 10).cut (grid0.coords t) ((dats m 0 c).after 10 t) = _
  rw [after0_10]
  funext j
  obtain ⟨b, h, rfl⟩ : ∃ (b : Fin 64) (h : Fin 4096), j = ix2 b h := ⟨j 0, j 1, eq_ix2 (n0 := 64) (n1 := 4096) j⟩
  show ((outsAt0 m c t.val t.isLt).1 : S64x4096.Idx → EReal) (ix2 b h) = Gk m c (((cfg0.win 10).blk t).view.emb (ix2 b h))
  have e : ((cfg0.win 10).blk t).view.emb (ix2 b h) = ix2 b h := by
    obtain ⟨e0, e1⟩ := idx10 t
    funext a; apply Fin.ext
    match a with
    | ⟨0, _⟩ => show win0_10.index t (0 : Fin 2) * 64 + 1 * b.val = b.val; omega
    | ⟨1, _⟩ => show win0_10.index t (1 : Fin 2) * 4096 + 1 * h.val = h.val; omega
  rw [e]
  exact output_last m c t h1 b h

/-- An index is in the block iff each coordinate is in the block's range. -/
theorem mem_blk10 (t : Fin cfg0.N) (i : S64x4096.Idx) :
    i ∈ ((cfg0.win 10).blk t).view.set ↔ ∀ a : Fin 2, win0_10.index t a * S64x4096.size a ≤ (i a).val ∧ (i a).val < win0_10.index t a * S64x4096.size a + S64x4096.size a := by
  show i ∈ ((View.whole main_v1).slice (win0_10.rect t)).set ↔ _
  rw [View.set_slice_whole, Rect.mem_set_unit]
  exact Iff.rfl

/-- The last point's block is the whole array. -/
theorem cover (i : S64x4096.Idx) : ∃ t : Fin cfg0.N, (cfg0.win 10).flush t = true ∧ i ∈ ((cfg0.win 10).blk t).view.set := by
  have h42 : 42 < cfg0.N := lt_of_lt_of_eq (by decide : 42 < 43) (show cfg0.N = 43 from N_0).symm
  refine ⟨⟨42, h42⟩, (flush0_10 _).mpr (by show 42 % 43 = 42; decide), ?_⟩
  rw [mem_blk10]
  obtain ⟨e0, e1⟩ := idx10 ⟨42, h42⟩
  intro a
  match a with
  | ⟨0, _⟩ =>
    show win0_10.index ⟨42, h42⟩ (0 : Fin 2) * 64 ≤ (i 0).val ∧ (i 0).val < win0_10.index ⟨42, h42⟩ (0 : Fin 2) * 64 + 64
    have : (i 0).val < 64 := (i 0).isLt
    omega
  | ⟨1, _⟩ =>
    show win0_10.index ⟨42, h42⟩ (1 : Fin 2) * 4096 ≤ (i 1).val ∧ (i 1).val < win0_10.index ⟨42, h42⟩ (1 : Fin 2) * 4096 + 4096
    have : (i 1).val < 4096 := (i 1).isLt
    omega

/-- THE OUTPUT ARRAY AFTER THE REGION. -/
theorem final : ((dats m 0 c).arrAt 10 cfg0.N : S64x4096.Idx → EReal) = Gk m c :=
  (dats m 0 c).arrAt_eq_of_cover 10 (Gk m c) (fun t hf => flushed_eq m c t hf) cover

/-- THE PROGRAM'S RESULT: the reshape of the output array, entry (b, 0, h) the whole sum. -/
theorem result_eq :
    (Pipeline.afterTail₀ cfgs (dats m) 0 (V0 m) [hostOps1] c main_v2 : S64x1x4096.Idx → EReal) = Cert.Mlp.G (argsOf m c) := by
  funext j
  obtain ⟨b, z, h, rfl⟩ : ∃ (b : Fin 64) (z : Fin 1) (h : Fin 4096), j = ix3 b z h :=
    ⟨j 0, j 1, j 2, eq_ix3 (n0 := 64) (n1 := 1) (n2 := 4096) j⟩
  rw [Cert.Mlp.Host.tail_apply m c b z h, final m c]
  rfl

/-- THE RUN, READ: every weakly fair execution terminates with the result at the specification's array of the
    launched arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Mlp.G (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.Mlp.Kernel

end
-- ==== Proof.RefValue.lean ====
/-
  The reference program computes the specification's function.

  The reference dequantizes each weight matrix by viewing its R × C codes as R × (C/128) × 128, subtracting the zero point
  and multiplying by the scale of the group (both broadcast along the last axis), and viewing the result as R × C again.
  Entry (r, k) of the round trip is read at (r, k / 128, k % 128), and that position of the first view is entry (r, k) of the
  codes: so the entry is (code[r, k] − zero[r, k / 128]) · scale[r, k / 128]. The two projections contract the activations'
  last axis with the matrices' last axis; the gate goes through  g · (1 / (1 + exp (−g))), which on the extended reals is
  g · logistic g by definition; the product with the up projection is contracted with the third matrix.
-/
import proofs.«153852_j83416854823015_1_alg».proof.Proof.Gen.ReferenceIdeal.Read
import proofs.«153852_j83416854823015_1_alg».proof.Proof.Spec

noncomputable section

open scoped BigOperators

namespace Cert.Mlp.Ref

open Cert.ReferenceIdeal Cert.ReferenceIdeal.Gen Cert.ReferenceIdeal.Read Idealize.ShloMosaic Idealize.ShloMosaic.ValueIdx

/-- Entry (i, k) of the first dequantized 11008 × 4096 matrix. -/
theorem v8_eq (x1 : (⟨S11008x4096, .i32⟩ : BufTy).Contents (Elt Ideal)) (x2 x3 : (⟨S11008x32, .f32⟩ : BufTy).Contents (Elt Ideal))
    (i : Fin 11008) (k : Fin 4096) :
    val_main_v8 (F := Ideal) x1 x2 x3 (ix2 i k) = Cert.Mlp.deq (G := 32) rfl x1 x2 x3 i k := by
  have hi := i.isLt
  have hk := k.isLt
  have e1 : idx_main_v1 (idx_main_v8 (ix2 i k)) = ix2 i k := funext fun a => Fin.ext (by
    match a with
    | ⟨0, _⟩ =>
      show (((i.val * 4096 + k.val) / 4096 * 32 + (i.val * 4096 + k.val) / 128 % 32) * 128 + (i.val * 4096 + k.val) % 128) / 4096 = i.val
      omega
    | ⟨1, _⟩ =>
      show (((i.val * 4096 + k.val) / 4096 * 32 + (i.val * 4096 + k.val) / 128 % 32) * 128 + (i.val * 4096 + k.val) % 128) % 4096 = k.val
      omega)
  have e2 : idx_main_v2 (idx_main_v3 (idx_main_v8 (ix2 i k))) = ix2 i (Cert.Mlp.grp (G := 32) rfl k) := funext fun a => Fin.ext (by
    match a with
    | ⟨0, _⟩ =>
      show (i.val * 4096 + k.val) / 4096 = i.val
      omega
    | ⟨1, _⟩ =>
      show (i.val * 4096 + k.val) / 128 % 32 = k.val / 128
      omega)
  have e3 : idx_main_v5 (idx_main_v6 (idx_main_v8 (ix2 i k))) = ix2 i (Cert.Mlp.grp (G := 32) rfl k) := e2
  rw [val_main_v8_apply, val_main_v7_apply, val_main_v4_apply, val_main_v1_apply, val_main_v0_apply, val_main_v3_apply,
    val_main_v2_apply, val_main_v6_apply, val_main_v5_apply, e1, e2, e3]
  rfl

/-- Entry (i, k) of the second dequantized 11008 × 4096 matrix. -/
theorem v17_eq (x4 : (⟨S11008x4096, .i32⟩ : BufTy).Contents (Elt Ideal)) (x5 x6 : (⟨S11008x32, .f32⟩ : BufTy).Contents (Elt Ideal))
    (i : Fin 11008) (k : Fin 4096) :
    val_main_v17 (F := Ideal) x4 x5 x6 (ix2 i k) = Cert.Mlp.deq (G := 32) rfl x4 x5 x6 i k := by
  have hi := i.isLt
  have hk := k.isLt
  have e1 : idx_main_v10 (idx_main_v17 (ix2 i k)) = ix2 i k := funext fun a => Fin.ext (by
    match a with
    | ⟨0, _⟩ =>
      show (((i.val * 4096 + k.val) / 4096 * 32 + (i.val * 4096 + k.val) / 128 % 32) * 128 + (i.val * 4096 + k.val) % 128) / 4096 = i.val
      omega
    | ⟨1, _⟩ =>
      show (((i.val * 4096 + k.val) / 4096 * 32 + (i.val * 4096 + k.val) / 128 % 32) * 128 + (i.val * 4096 + k.val) % 128) % 4096 = k.val
      omega)
  have e2 : idx_main_v11 (idx_main_v12 (idx_main_v17 (ix2 i k))) = ix2 i (Cert.Mlp.grp (G := 32) rfl k) := funext fun a => Fin.ext (by
    match a with
    | ⟨0, _⟩ =>
      show (i.val * 4096 + k.val) / 4096 = i.val
      omega
    | ⟨1, _⟩ =>
      show (i.val * 4096 + k.val) / 128 % 32 = k.val / 128
      omega)
  have e3 : idx_main_v14 (idx_main_v15 (idx_main_v17 (ix2 i k))) = ix2 i (Cert.Mlp.grp (G := 32) rfl k) := e2
  rw [val_main_v17_apply, val_main_v16_apply, val_main_v13_apply, val_main_v10_apply, val_main_v9_apply, val_main_v12_apply,
    val_main_v11_apply, val_main_v15_apply, val_main_v14_apply, e1, e2, e3]
  rfl

/-- Entry (h, i) of the dequantized 4096 × 11008 matrix (86 groups of 128 columns). -/
theorem v26_eq (x7 : (⟨S4096x11008, .i32⟩ : BufTy).Contents (Elt Ideal)) (x8 x9 : (⟨S4096x86, .f32⟩ : BufTy).Contents (Elt Ideal))
    (h : Fin 4096) (i : Fin 11008) :
    val_main_v26 (F := Ideal) x7 x8 x9 (ix2 h i) = Cert.Mlp.deq (G := 86) rfl x7 x8 x9 h i := by
  have hh := h.isLt
  have hi := i.isLt
  have e1 : idx_main_v19 (idx_main_v26 (ix2 h i)) = ix2 h i := funext fun a => Fin.ext (by
    match a with
    | ⟨0, _⟩ =>
      show (((h.val * 11008 + i.val) / 11008 * 86 + (h.val * 11008 + i.val) / 128 % 86) * 128 + (h.val * 11008 + i.val) % 128) / 11008 = h.val
      omega
    | ⟨1, _⟩ =>
      show (((h.val * 11008 + i.val) / 11008 * 86 + (h.val * 11008 + i.val) / 128 % 86) * 128 + (h.val * 11008 + i.val) % 128) % 11008 = i.val
      omega)
  have e2 : idx_main_v20 (idx_main_v21 (idx_main_v26 (ix2 h i))) = ix2 h (Cert.Mlp.grp (G := 86) rfl i) := funext fun a => Fin.ext (by
    match a with
    | ⟨0, _⟩ =>
      show (h.val * 11008 + i.val) / 11008 = h.val
      omega
    | ⟨1, _⟩ =>
      show (h.val * 11008 + i.val) / 128 % 86 = i.val / 128
      omega)
  have e3 : idx_main_v23 (idx_main_v24 (idx_main_v26 (ix2 h i))) = ix2 h (Cert.Mlp.grp (G := 86) rfl i) := e2
  rw [val_main_v26_apply, val_main_v25_apply, val_main_v22_apply, val_main_v19_apply, val_main_v18_apply, val_main_v21_apply,
    val_main_v20_apply, val_main_v24_apply, val_main_v23_apply, e1, e2, e3]
  rfl

/-- The gate projection: the activations' row b against row i of the first dequantized matrix. -/
theorem v27_eq (x0 : (⟨S64x1x4096, .f32⟩ : BufTy).Contents (Elt Ideal)) (x1 : (⟨S11008x4096, .i32⟩ : BufTy).Contents (Elt Ideal))
    (x2 x3 : (⟨S11008x32, .f32⟩ : BufTy).Contents (Elt Ideal)) (b : Fin 64) (z : Fin 1) (i : Fin 11008) :
    val_main_v27 (F := Ideal) x0 x1 x2 x3 (ix3 b z i) = Cert.Mlp.proj x0 x1 x2 x3 b i := by
  rw [val_main_v27_apply, Cert.Mlp.proj]
  refine Finset.sum_congr rfl fun k _ => ?_
  have el : lidx_main_v27 (ix3 b z i) k = ix3 b (0 : Fin 1) k := funext fun a => by
    match a with
    | ⟨0, _⟩ => rfl
    | ⟨1, _⟩ => exact Subsingleton.elim (α := Fin 1) _ _
    | ⟨2, _⟩ => rfl
  have er : ridx_main_v27 (ix3 b z i) k = ix2 i k := funext fun a => by
    match a with
    | ⟨0, _⟩ => rfl
    | ⟨1, _⟩ => rfl
  rw [el, er, v8_eq]

/-- The up projection: the activations' row b against row i of the second dequantized matrix. -/
theorem v28_eq (x0 : (⟨S64x1x4096, .f32⟩ : BufTy).Contents (Elt Ideal)) (x4 : (⟨S11008x4096, .i32⟩ : BufTy).Contents (Elt Ideal))
    (x5 x6 : (⟨S11008x32, .f32⟩ : BufTy).Contents (Elt Ideal)) (b : Fin 64) (z : Fin 1) (i : Fin 11008) :
    val_main_v28 (F := Ideal) x0 x4 x5 x6 (ix3 b z i) = Cert.Mlp.proj x0 x4 x5 x6 b i := by
  rw [val_main_v28_apply, Cert.Mlp.proj]
  refine Finset.sum_congr rfl fun k _ => ?_
  have el : lidx_main_v28 (ix3 b z i) k = ix3 b (0 : Fin 1) k := funext fun a => by
    match a with
    | ⟨0, _⟩ => rfl
    | ⟨1, _⟩ => exact Subsingleton.elim (α := Fin 1) _ _
    | ⟨2, _⟩ => rfl
  have er : ridx_main_v28 (ix3 b z i) k = ix2 i k := funext fun a => by
    match a with
    | ⟨0, _⟩ => rfl
    | ⟨1, _⟩ => rfl
  rw [el, er, v17_eq]

/-- The word 0x3F800000 read as a binary32 number is 1. -/
theorem ofBits_one_f32 : Ideal.ofBits .f32 0x3F800000#32 = (1 : EReal) := by
  simp [Ideal.ofBits, Ideal.ieee, -EReal.coe_mul]; norm_num

/-- The gated activation: g · (1 / (1 + exp (−g))) is g · logistic g, times the up projection. -/
theorem v30_eq (x0 : (⟨S64x1x4096, .f32⟩ : BufTy).Contents (Elt Ideal)) (x1 : (⟨S11008x4096, .i32⟩ : BufTy).Contents (Elt Ideal))
    (x2 x3 : (⟨S11008x32, .f32⟩ : BufTy).Contents (Elt Ideal)) (x4 : (⟨S11008x4096, .i32⟩ : BufTy).Contents (Elt Ideal))
    (x5 x6 : (⟨S11008x32, .f32⟩ : BufTy).Contents (Elt Ideal)) (x7 : (⟨S4096x11008, .i32⟩ : BufTy).Contents (Elt Ideal))
    (x8 x9 : (⟨S4096x86, .f32⟩ : BufTy).Contents (Elt Ideal)) (b : Fin 64) (z : Fin 1) (i : Fin 11008) :
    val_main_v30 (F := Ideal) x0 x1 x2 x3 x4 x5 x6 (ix3 b z i) = Cert.Mlp.act ⟨x0, x1, x2, x3, x4, x5, x6, x7, x8, x9⟩ b i := by
  rw [val_main_v30_apply, val_main_v29_apply, val_main_call0_v5_apply, val_main_call0_v4_apply, val_main_call0_cst_0_apply,
    val_main_call0_v3_apply, val_main_call0_v2_apply, val_main_call0_cst_apply, val_main_call0_v1_apply,
    val_main_call0_v0_apply, v27_eq, v28_eq]
  simp only [Ideal.hostDivf_def, Ideal.addf_def, Ideal.hostUnary_exp_def, Ideal.hostNegf_def, Ideal.negf_def, Ideal.mulf_def,
    Ideal.ofBits_def, ofBits_one_f32]
  rfl

/-- THE REFERENCE'S RESULT IS THE SPECIFICATION'S FUNCTION OF THE TEN ARGUMENT ARRAYS. -/
theorem ref_eq (x0 : (⟨S64x1x4096, .f32⟩ : BufTy).Contents (Elt Ideal)) (x1 : (⟨S11008x4096, .i32⟩ : BufTy).Contents (Elt Ideal))
    (x2 x3 : (⟨S11008x32, .f32⟩ : BufTy).Contents (Elt Ideal)) (x4 : (⟨S11008x4096, .i32⟩ : BufTy).Contents (Elt Ideal))
    (x5 x6 : (⟨S11008x32, .f32⟩ : BufTy).Contents (Elt Ideal)) (x7 : (⟨S4096x11008, .i32⟩ : BufTy).Contents (Elt Ideal))
    (x8 x9 : (⟨S4096x86, .f32⟩ : BufTy).Contents (Elt Ideal)) :
    Cert.ReferenceIdeal.Read.val_main_v31 (F := Ideal) x0 x1 x2 x3 x4 x5 x6 x7 x8 x9
      = Cert.Mlp.G ⟨x0, x1, x2, x3, x4, x5, x6, x7, x8, x9⟩ := by
  funext j
  obtain ⟨b, z, h, rfl⟩ : ∃ (b : Fin 64) (z : Fin 1) (h : Fin 4096), j = ix3 b z h := ⟨j 0, j 1, j 2, eq_ix3 j⟩
  rw [val_main_v31_apply, Cert.Mlp.G_apply, Cert.Mlp.out]
  refine Finset.sum_congr rfl fun k _ => ?_
  have el : lidx_main_v31 (ix3 b z h) k = ix3 b z k := funext fun a => by
    match a with
    | ⟨0, _⟩ => rfl
    | ⟨1, _⟩ => rfl
    | ⟨2, _⟩ => rfl
  have er : ridx_main_v31 (ix3 b z h) k = ix2 h k := funext fun a => by
    match a with
    | ⟨0, _⟩ => rfl
    | ⟨1, _⟩ => rfl
  rw [el, er, v30_eq x0 x1 x2 x3 x4 x5 x6 x7 x8 x9, v26_eq]
  rfl

end Cert.Mlp.Ref

end
-- ==== Proof.lean ====
/-
  A gated MLP with 4-bit grouped weights: the kernel against its plain reference, on the extended reals.

  Both programs dequantize three weight matrices, each stored as integer codes with one scale and one zero point per
  group of 128 consecutive columns — weight[r, k] = (code[r, k] − zero[r, k / 128]) · scale[r, k / 128] —, project the
  64 activations of length 4096 onto the 11008 rows of the gate and of the up matrix, form
  a[b, i] = (gate · logistic gate) · up, and contract a with the 4096 × 11008 down matrix:
        out[b, h] = Σ_{i < 11008} a[b, i] · Wd[h, i].
  The reference does this with whole matrices. The kernel walks the 11008 intermediate positions 256 at a time over a
  grid of 43 points, keeping a running total that it zeroes at the first point, adds each point's 256 summands to, and
  copies to the output at the last point. On the extended reals the two agree entry by entry because
    · logistic is, by definition, 1 / (1 + exp(−g)), the expression the reference spells out;
    · rounding to a narrower float format is the identity;
    · a sum over 11008 = 43 · 256 positions may be taken tile by tile: addition of extended reals is associative and
      commutative, so no entry is asked to be finite and the precondition is never opened.
  The specification (Spec), the reference's side (RefValue) and the kernel's side (KernelRun, over the payloads, the
  pieces each case leaves, the block reads and the one-point step) meet here. No operation of the kernel was rewritten on
  the way to the extended reals, so its idealization is its own text read there.
-/
import proofs.«153852_j83416854823015_1_alg».proof.Defs
import proofs.«153852_j83416854823015_1_alg».proof.Proof.Gen.Kernel
import proofs.«153852_j83416854823015_1_alg».proof.Proof.Gen.Kernel.Frame
import proofs.«153852_j83416854823015_1_alg».proof.Proof.Gen.KernelIdeal
import proofs.«153852_j83416854823015_1_alg».proof.Proof.Gen.KernelIdeal.Frame
import proofs.«153852_j83416854823015_1_alg».proof.Proof.Gen.ReferenceIdeal
import proofs.«153852_j83416854823015_1_alg».proof.Proof.Gen.ReferenceIdeal.Run
import proofs.«153852_j83416854823015_1_alg».proof.Proof.Gen.Pre_finite_inputs
import proofs.«153852_j83416854823015_1_alg».proof.Proof.KernelRun
import proofs.«153852_j83416854823015_1_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the ten arguments both programs end with the specification's array of those
    arguments: the kernel by its running total over the 43 tiles, the reference operation by operation. -/
theorem algebraic : Cert.algebraic_KernelIdeal_ReferenceIdeal := by
  intro m ρ m' ρ' _ hagree
  refine ⟨fun c => Cert.Mlp.G (Cert.Mlp.Kernel.argsOf m c), Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.Mlp.Ref.ref_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
